-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x800000 : Shape := ⟨2, ![2, 800000]⟩
abbrev S2x200000 : Shape := ⟨2, ![2, 200000]⟩
abbrev S5000x128 : Shape := ⟨2, ![5000, 128]⟩
abbrev S128x256 : Shape := ⟨2, ![128, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg14 : FVec F S128 .f32) (main_arg15 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  main_v63

def fn_part2 {F : FTy → Type} [FloatOps F] (main_arg10 : FVec F S192x128 .f32) (main_arg11 : FVec F S128 .f32) (main_arg12 : FVec F S192x128 .f32) (main_arg13 : FVec F S128x128 .f32) (main_arg14 : FVec F S128 .f32) (main_arg15 : FVec F S128x128 .f32) (main_v33 : IVec S_ 1) : IVec S_ 1 :=
  let main_v34 : FVec F S192x128 .f32 := Host.absf main_arg10
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x128 .f32 := Host.absf main_arg12
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_v48 main_v49 main_v50

def fn_part1 {F : FTy → Type} [FloatOps F] (main_arg7 : FVec F S256x192 .f32) (main_arg8 : FVec F S192 .f32) (main_arg9 : FVec F S256x192 .f32) (main_arg10 : FVec F S192x128 .f32) (main_arg11 : FVec F S128 .f32) (main_arg12 : FVec F S192x128 .f32) (main_arg13 : FVec F S128x128 .f32) (main_arg14 : FVec F S128 .f32) (main_arg15 : FVec F S128x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x192 .f32 := Host.absf main_arg7
  let main_cst_6 : FVec F S_ .f32 := constant S_ .f32 0x7F800000#32
  let main_v20 : FVec F S256x192 .f32 := broadcastInDim S256x192 ![] bcast_S_S256x192 main_cst_6
  let main_v21 : IVec S256x192 1 := cmpf .olt main_v19 main_v20
  let main_c_7 : IVec S_ 1 := constantI S_ 1 1#1
  let main_v22 : IVec S_ 1 := (fun x v => Host.reduce IntOp.andi x v reducesTo_S256x192_S_d0_1 h_S_) main_v21 main_c_7
  let main_v23 : IVec S_ 1 := andi main_v18 main_v22
  let main_v24 : FVec F S192 .f32 := Host.absf main_arg8
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S256x192 .f32 := Host.absf main_arg9
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S100000x1 32) (main_arg1 : IVec S2x800000 32) (main_arg2 : IVec S2x200000 32) (main_arg3 : FVec F S5000x128 .f32) (main_arg4 : FVec F S128x256 .f32) (main_arg5 : FVec F S256 .f32) (main_arg6 : FVec F S128x256 .f32) (main_arg7 : FVec F S256x192 .f32) (main_arg8 : FVec F S192 .f32) (main_arg9 : FVec F S256x192 .f32) (main_arg10 : FVec F S192x128 .f32) (main_arg11 : FVec F S128 .f32) (main_arg12 : FVec F S192x128 .f32) (main_arg13 : FVec F S128x128 .f32) (main_arg14 : FVec F S128 .f32) (main_arg15 : FVec F S128x128 .f32) : IVec S_ 1 :=
  let main_v0 : FVec F S5000x128 .f32 := Host.absf main_arg3
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_arg8 main_arg9 main_arg10 main_arg11 main_arg12 main_arg13 main_arg14 main_arg15 main_v13 main_v16
-- ==== Kernel.lean ====
abbrev S100000x1 : Shape := ⟨2, ![100000, 1]⟩
abbrev S2x800000 : Shape := ⟨2, ![2, 800000]⟩
abbrev S2x200000 : Shape := ⟨2, ![2, 200000]⟩
abbrev S5000x128 : Shape := ⟨2, ![5000, 128]⟩
abbrev S128x256 : Shape := ⟨2, ![128, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S1x200000 : Shape := ⟨2, ![1, 200000]⟩
abbrev S200000 : Shape := ⟨1, ![200000]⟩
abbrev S100000 : Shape := ⟨1, ![100000]⟩
abbrev S_ : Shape := ⟨0, ![]⟩
abbrev S100000x128 : Shape := ⟨2, ![100000, 128]⟩
abbrev S800000x1 : Shape := ⟨2, ![800000, 1]⟩
abbrev S800000x128 : Shape := ⟨2, ![800000, 128]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x192 : Shape := ⟨2, ![1, 192]⟩
abbrev S100000x192 : Shape := ⟨2, ![100000, 192]⟩
abbrev S2000x192 : Shape := ⟨2, ![2000, 192]⟩
abbrev S800000x192 : Shape := ⟨2, ![800000, 192]⟩
abbrev S1x128 : Shape := ⟨2, ![1, 128]⟩
abbrev S200000x1 : Shape := ⟨2, ![200000, 1]⟩
abbrev S200000x128 : Shape := ⟨2, ![200000, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 127
  | .vmem => 50
  | .smem => 0
  | _ => 0

abbrev bufTy : (tb : Table) → Fin (tcTables nBuf tb) → BufTy
  | .hbm, ⟨0, _⟩ => ⟨S100000x1, .i32⟩
  | .hbm, ⟨1, _⟩ => ⟨S2x800000, .i32⟩
  | .hbm, ⟨2, _⟩ => ⟨S2x200000, .i32⟩
  | .hbm, ⟨3, _⟩ => ⟨S5000x128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x192, .f32⟩
  | .hbm, ⟨8, _⟩ => ⟨S192, .f32⟩
  | .hbm, ⟨9, _⟩ => ⟨S256x192, .f32⟩
  | .hbm, ⟨10, _⟩ => ⟨S192x128, .f32⟩
  | .hbm, ⟨11, _⟩ => ⟨S128, .f32⟩
  | .hbm, ⟨12, _⟩ => ⟨S192x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S1x200000, .i32⟩
  | .hbm, ⟨21, _⟩ => ⟨S200000, .i32⟩
  | .hbm, ⟨22, _⟩ => ⟨S1x200000, .i32⟩
  | .hbm, ⟨23, _⟩ => ⟨S200000, .i32⟩
  | .hbm, ⟨24, _⟩ => ⟨S100000, .i32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S100000, .f32⟩
  | .hbm, ⟨38, _⟩ => ⟨S800000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S1x256, .f32⟩
  | .hbm, ⟨61, _⟩ => ⟨S100000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S100000x256, .f32⟩
  | .hbm, ⟨73, _⟩ => ⟨S800000x1, .i32⟩
  | .hbm, ⟨74, _⟩ => ⟨S100000x256, .f32⟩
  | .hbm, ⟨75, _⟩ => ⟨S1x192, .f32⟩
  | .hbm, ⟨76, _⟩ => ⟨S100000x192, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x192, .f32⟩
  | .hbm, ⟨86, _⟩ => ⟨S_, .f32⟩
  | .hbm, ⟨87, _⟩ => ⟨S100000x192, .f32⟩
  | .hbm, ⟨88, _⟩ => ⟨S800000x1, .i32⟩
  | .hbm, ⟨89, _⟩ => ⟨S100000x192, .f32⟩
  | .hbm, ⟨90, _⟩ => ⟨S1x128, .f32⟩
  | .hbm, ⟨91, _⟩ => ⟨S100000x128, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S_, .f32⟩
  | .hbm, ⟨102, _⟩ => ⟨S100000x128, .f32⟩
  | .hbm, ⟨103, _⟩ => ⟨S800000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S_, .i32⟩
  | .hbm, ⟨108, _⟩ => ⟨S200000, .i32⟩
  | .hbm, ⟨109, _⟩ => ⟨S200000, .i1⟩
  | .hbm, ⟨110, _⟩ => ⟨S_, .i32⟩
  | .hbm, ⟨111, _⟩ => ⟨S200000, .i32⟩
  | .hbm, ⟨112, _⟩ => ⟨S200000, .i32⟩
  | .hbm, ⟨113, _⟩ => ⟨S200000, .i32⟩
  | .hbm, ⟨114, _⟩ => ⟨S200000x1, .i32⟩
  | .hbm, ⟨115, _⟩ => ⟨S200000x128, .f32⟩
  | .hbm, ⟨116, _⟩ => ⟨S_, .i32⟩
  | .hbm, ⟨117, _⟩ => ⟨S200000, .i32⟩
  | .hbm, ⟨118, _⟩ => ⟨S200000, .i1⟩
  | .hbm, ⟨119, _⟩ => ⟨S_, .i32⟩
  | .hbm, ⟨120, _⟩ => ⟨S200000, .i32⟩
  | .hbm, ⟨121, _⟩ => ⟨S200000, .i32⟩
  | .hbm, ⟨122, _⟩ => ⟨S200000, .i32⟩
  | .hbm, ⟨123, _⟩ => ⟨S200000x1, .i32⟩
  | .hbm, ⟨124, _⟩ => ⟨S200000x128, .f32⟩
  | .hbm, ⟨125, _⟩ => ⟨S200000x1, .f32⟩
  | .hbm, ⟨126, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x192, .f32⟩
  | .local _ .vmem, ⟨18, _⟩ => ⟨S1x192, .f32⟩
  | .local _ .vmem, ⟨19, _⟩ => ⟨S256x192, .f32⟩
  | .local _ .vmem, ⟨20, _⟩ => ⟨S2000x192, .f32⟩
  | .local _ .vmem, ⟨21, _⟩ => ⟨S2000x192, .f32⟩
  | .local _ .vmem, ⟨22, _⟩ => ⟨S2000x192, .f32⟩
  | .local _ .vmem, ⟨23, _⟩ => ⟨S2000x192, .f32⟩
  | .local _ .vmem, ⟨24, _⟩ => ⟨S2000x1, .f32⟩
  | .local _ .vmem, ⟨25, _⟩ => ⟨S2000x1, .f32⟩
  | .local _ .vmem, ⟨26, _⟩ => ⟨S2000x192, .f32⟩
  | .local _ .vmem, ⟨27, _⟩ => ⟨S2000x192, .f32⟩
  | .local _ .vmem, ⟨28, _⟩ => ⟨S192x128, .f32⟩
  | .local _ .vmem, ⟨29, _⟩ => ⟨S1x128, .f32⟩
  | .local _ .vmem, ⟨30, _⟩ => ⟨S192x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x1, .f32⟩
  | .local _ .vmem, ⟨49, _⟩ => ⟨S4000x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S192x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S192x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S192_S1x192 : S192.ShapeCasts S1x192
  shapeCasts_S2000x256_S2000x256 : S2000x256.ShapeCasts S2000x256
  broadcasts_S2000x1_S2000x256 : S2000x1.Broadcasts S2000x256
  inb_S256x192_S256x192_0_0 : ∀ a, (![0, 0] : Fin 2 → Nat) a + S256x192.size a ≤ S256x192.size a
  h_S256x192 : 0 < S256x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  bcast_S_S100000x192 : S_.BroadcastsInDim S100000x192 (![] : Fin 0 → Fin S100000x192.rank)
  shapeCasts_S128_S1x128 : S128.ShapeCasts S1x128
  shapeCasts_S2000x192_S2000x192 : S2000x192.ShapeCasts S2000x192
  broadcasts_S2000x1_S2000x192 : S2000x1.Broadcasts S2000x192
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  bcast_S_S200000 : S_.BroadcastsInDim S200000 (![] : Fin 0 → Fin S200000.rank)
  bcast_S200000_S200000x1_0 : S200000.BroadcastsInDim S200000x1 (![0] : Fin 1 → Fin S200000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  gather_S5000x128_S100000x1_S100000x128_1_0_n_n_0_1_1128_wf : GatherDims.WF S5000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x256_S2000x256_1_0_0_1_n_n_wf : DotDims.WF S2000x128 S128x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x192_S2000x192_1_0_0_1_n_n_wf : DotDims.WF S2000x256 S256x192 S2000x192 [1] [0] [0] [1] [] []
  gather_S100000x192_S800000x1_S800000x192_1_0_n_n_0_1_1192_wf : GatherDims.WF S100000x192 S800000x1 S800000x192 [1] [0] [] [0] [] 1 ![1, 192]
  scatter_S100000x192_S800000x1_S800000x192_1_0_0_1_wf : ScatterDims.WF S100000x192 S800000x1 S800000x192 [1] [0] [0] 1
  dot_S2000x192_S192x128_S2000x128_1_0_0_1_n_n_wf : DotDims.WF S2000x192 S192x128 S2000x128 [1] [0] [0] [1] [] []
  dot_S2000x128_S128x128_S2000x128_1_0_0_1_n_n_wf : DotDims.WF S2000x128 S128x128 S2000x128 [1] [0] [0] [1] [] []
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x192.size a ≤ S256x192.size a
  hwx1_3 : ∀ i : grid1.Coords, EltTy.bits .f32 = 32 ∨ (Rect.block (s := S256x192) S256x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x192.size a ≤ S256x192.size a
  hwx1_5 : ∀ i : grid1.Coords, EltTy.bits .f32 = 32 ∨ (Rect.block (s := S256x192) S256x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x192.size a ≤ S100000x192.size a
  hwx1_6 : ∀ i : grid1.Coords, EltTy.bits .f32 = 32 ∨ (Rect.block (s := S100000x192) S2000x192.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S100000x192.size a
  hwx2_0 : ∀ i : grid2.Coords, EltTy.bits .f32 = 32 ∨ (Rect.block (s := S100000x192) S2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x192.size a ≤ S100000x192.size a
  hwx2_2 : ∀ i : grid2.Coords, EltTy.bits .f32 = 32 ∨ (Rect.block (s := S100000x192) S2000x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x128.size a ≤ S192x128.size a
  hwx2_3 : ∀ i : grid2.Coords, EltTy.bits .f32 = 32 ∨ (Rect.block (s := S192x128) S192x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S192x128.size a ≤ S192x128.size a
  hwx2_5 : ∀ i : grid2.Coords, EltTy.bits .f32 = 32 ∨ (Rect.block (s := S192x128) S192x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S200000x128.size a
  hwx4_1 : ∀ i : grid4.Coords, EltTy.bits .f32 = 32 ∨ (Rect.block (s := S200000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S200000x1.size a
  hwx4_2 : ∀ i : grid4.Coords, EltTy.bits .f32 = 32 ∨ (Rect.block (s := S200000x1) S4000x1.size (cc4_transform_2 i) (hinb4_2 i)).WholeWords (EltTy.packing .f32)

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x192_S2000x192_1_0_0_1_n_n : DotDims S2000x256 S256x192 S2000x192 where
  lhsContracting := [1]
  rhsContracting := [0]
  lhsNonContracting := [0]
  rhsNonContracting := [1]
  lhsBatch := []
  rhsBatch := []
  wf := dot_S2000x256_S256x192_S2000x192_1_0_0_1_n_n_wf
def gather_S100000x192_S800000x1_S800000x192_1_0_n_n_0_1_1192 : GatherDims S100000x192 S800000x1 S800000x192 where
  offsetDims := [1]
  collapsedSliceDims := [0]
  operandBatchingDims := []
  startIndicesBatchingDims := []
  startIndexMap := [0]
  indexVectorDim := 1
  sliceSizes := ![1, 192]
  wf := gather_S100000x192_S800000x1_S800000x192_1_0_n_n_0_1_1192_wf
def scatter_S100000x192_S800000x1_S800000x192_1_0_0_1 : ScatterDims S100000x192 S800000x1 S800000x192 where
  updateWindowDims := [1]
  insertedWindowDims := [0]
  scatterDimsToOperandDims := [0]
  indexVectorDim := 1
  wf := scatter_S100000x192_S800000x1_S800000x192_1_0_0_1_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_v34) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S2000x192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S192x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S192x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x1 : Shape := ⟨2, ![100000, 1]⟩
abbrev S2x800000 : Shape := ⟨2, ![2, 800000]⟩
abbrev S2x200000 : Shape := ⟨2, ![2, 200000]⟩
abbrev S5000x128 : Shape := ⟨2, ![5000, 128]⟩
abbrev S128x256 : Shape := ⟨2, ![128, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S100000 : Shape := ⟨1, ![100000]⟩
abbrev S_ : Shape := ⟨0, ![]⟩
abbrev S100000x128 : Shape := ⟨2, ![100000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S100000x256 : Shape := ⟨2, ![100000, 256]⟩
abbrev S1x256 : Shape := ⟨2, ![1, 256]⟩
abbrev S800000x256 : Shape := ⟨2, ![800000, 256]⟩
abbrev S100000x192 : Shape := ⟨2, ![100000, 192]⟩
abbrev S1x192 : Shape := ⟨2, ![1, 192]⟩
abbrev S800000x192 : Shape := ⟨2, ![800000, 192]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 158
  | .vmem => 0
  | .smem => 0
  | _ => 0

abbrev hbmTy0_0 (i : Nat) : BufTy := match i % 128 with
  | 0 => ⟨S100000x1, .i32⟩
  | 1 => ⟨S2x800000, .i32⟩
  | 2 => ⟨S2x200000, .i32⟩
  | 3 => ⟨S5000x128, .f32⟩
  | 4 => ⟨S128x256, .f32⟩
  | 5 => ⟨S256, .f32⟩
  | 6 => ⟨S128x256, .f32⟩
  | 7 => ⟨S256x192, .f32⟩
  | 8 => ⟨S192, .f32⟩
  | 9 => ⟨S256x192, .f32⟩
  | 10 => ⟨S192x128, .f32⟩
  | 11 => ⟨S128, .f32⟩
  | 12 => ⟨S192x128, .f32⟩
  | 13 => ⟨S128x128, .f32⟩
  | 14 => ⟨S128, .f32⟩
  | 15 => ⟨S128x128, .f32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S1x800000, .i32⟩
  | 27 => ⟨S800000, .i32⟩
  | 28 => ⟨S1x800000, .i32⟩
  | 29 => ⟨S800000, .i32⟩
  | 30 => ⟨S_, .f32⟩
  | 31 => ⟨S800000, .f32⟩
  | 32 => ⟨S_, .f32⟩
  | 33 => ⟨S100000, .f32⟩
  | 34 => ⟨S800000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S100000x128, .f32⟩
  | 51 => ⟨S800000x1, .i32⟩
  | 52 => ⟨S100000x128, .f32⟩
  | 53 => ⟨S100000x128, .f32⟩
  | 54 => ⟨S100000x128, .f32⟩
  | 55 => ⟨S100000x256, .f32⟩
  | 56 => ⟨S1x256, .f32⟩
  | 57 => ⟨S100000x256, .f32⟩
  | 58 => ⟨S100000x256, .f32⟩
  | 59 => ⟨S100000x256, .f32⟩
  | 60 => ⟨S100000x256, .f32⟩
  | 61 => ⟨S_, .f32⟩
  | 62 => ⟨S100000x256, .f32⟩
  | 63 => ⟨S100000x256, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x256, .f32⟩
  | 73 => ⟨S_, .f32⟩
  | 74 => ⟨S100000x256, .f32⟩
  | 75 => ⟨S800000x1, .i32⟩
  | 76 => ⟨S100000x256, .f32⟩
  | 77 => ⟨S100000x256, .f32⟩
  | 78 => ⟨S100000x256, .f32⟩
  | 79 => ⟨S100000x192, .f32⟩
  | 80 => ⟨S1x192, .f32⟩
  | 81 => ⟨S100000x192, .f32⟩
  | 82 => ⟨S100000x192, .f32⟩
  | 83 => ⟨S100000x192, .f32⟩
  | 84 => ⟨S100000x192, .f32⟩
  | 85 => ⟨S_, .f32⟩
  | 86 => ⟨S100000x192, .f32⟩
  | 87 => ⟨S100000x192, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x192, .f32⟩
  | 97 => ⟨S_, .f32⟩
  | 98 => ⟨S100000x192, .f32⟩
  | 99 => ⟨S800000x1, .i32⟩
  | 100 => ⟨S100000x192, .f32⟩
  | 101 => ⟨S100000x192, .f32⟩
  | 102 => ⟨S100000x192, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S100000x128, .f32⟩
  | 123 => ⟨S800000x1, .i32⟩
  | 124 => ⟨S100000x128, .f32⟩
  | 125 => ⟨S100000x128, .f32⟩
  | 126 => ⟨S100000x128, .f32⟩
  | 127 => ⟨S100000x128, .f32⟩
  | _ => ⟨S100000x1, .i32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S100000x128, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x128, .f32⟩
  | 16 => ⟨S1x200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x128, .f32⟩
  | 27 => ⟨S200000x128, .f32⟩
  | 28 => ⟨S_, .f32⟩
  | 29 => ⟨S200000, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_cst : Ref sig .tc := ⟨.hbm, 61, rfl⟩
abbrev main_call0_v0 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_cst : Ref sig .tc := ⟨.hbm, 85, rfl⟩
abbrev main_call1_v0 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_c_12 : Ref sig .tc := ⟨.hbm, 112, rfl⟩
abbrev main_v76 : Ref sig .tc := ⟨.hbm, 113, rfl⟩
abbrev main_v77 : Ref sig .tc := ⟨.hbm, 114, rfl⟩
abbrev main_c_13 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_15 : Ref sig .tc := ⟨.hbm, 135, rfl⟩
abbrev main_v96 : Ref sig .tc := ⟨.hbm, 136, rfl⟩
abbrev main_v97 : Ref sig .tc := ⟨.hbm, 137, rfl⟩
abbrev main_c_16 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_17 : Ref sig .tc := ⟨.hbm, 146, rfl⟩
abbrev main_v105 : Ref sig .tc := ⟨.hbm, 147, rfl⟩
abbrev main_v106 : Ref sig .tc := ⟨.hbm, 148, rfl⟩
abbrev main_c_18 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_19 : Ref sig .tc := ⟨.hbm, 156, rfl⟩
abbrev main_v113 : Ref sig .tc := ⟨.hbm, 157, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  bcast_S_S100000x192 : S_.BroadcastsInDim S100000x192 (![] : Fin 0 → Fin S100000x192.rank)
  bcast_S100000x1_S100000x192_0_1 : S100000x1.BroadcastsInDim S100000x192 (![0, 1] : Fin 2 → Fin S100000x192.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  gather_S5000x128_S100000x1_S100000x128_1_0_n_n_0_1_1128_wf : GatherDims.WF S5000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x192_S100000x192_1_0_0_1_n_n_wf : DotDims.WF S100000x256 S256x192 S100000x192 [1] [0] [0] [1] [] []
  gather_S100000x192_S800000x1_S800000x192_1_0_n_n_0_1_1192_wf : GatherDims.WF S100000x192 S800000x1 S800000x192 [1] [0] [] [0] [] 1 ![1, 192]
  scatter_S100000x192_S800000x1_S800000x192_1_0_0_1_wf : ScatterDims.WF S100000x192 S800000x1 S800000x192 [1] [0] [0] 1
  dot_S100000x192_S192x128_S100000x128_1_0_0_1_n_n_wf : DotDims.WF S100000x192 S192x128 S100000x128 [1] [0] [0] [1] [] []
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x192_S100000x192_1_0_0_1_n_n : DotDims S100000x256 S256x192 S100000x192 where
  lhsContracting := [1]
  rhsContracting := [0]
  lhsNonContracting := [0]
  rhsNonContracting := [1]
  lhsBatch := []
  rhsBatch := []
  wf := dot_S100000x256_S256x192_S100000x192_1_0_0_1_n_n_wf
def gather_S100000x192_S800000x1_S800000x192_1_0_n_n_0_1_1192 : GatherDims S100000x192 S800000x1 S800000x192 where
  offsetDims := [1]
  collapsedSliceDims := [0]
  operandBatchingDims := []
  startIndicesBatchingDims := []
  startIndexMap := [0]
  indexVectorDim := 1
  sliceSizes := ![1, 192]
  wf := gather_S100000x192_S800000x1_S800000x192_1_0_n_n_0_1_1192_wf
def scatter_S100000x192_S800000x1_S800000x192_1_0_0_1 : ScatterDims S100000x192 S800000x1 S800000x192 where
  updateWindowDims := [1]
  insertedWindowDims := [0]
  scatterDimsToOperandDims := [0]
  indexVectorDim := 1
  wf := scatter_S100000x192_S800000x1_S800000x192_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.ValueRun.lean ====
/-
  The idealized kernel's whole run with its result named. The program is five kernel regions among six stretches of
  host operations; the buffer contents at each boundary are a fold through the program from the launch memory
  (a stretch applies its operations; a region replaces its result array by what its write-backs leave and keeps every
  other buffer). Every weakly fair execution terminates without a fault, and in the final state the result buffer holds
  the last fold's value at that buffer while each argument array is as launched.
-/
import proofs.«170958_j64312840290338_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v88 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.ValueRun

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«170958_j64312840290338_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«170958_j64312840290338_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«170958_j64312840290338_2_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«170958_j64312840290338_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibSage.lean ====
/-
  One mean-aggregation graph layer on the extended reals, as a whole-array function, and its two spellings.

  For `M` nodes with `K` input features: `A` holds each node's summed neighbour features, `v` an `M × 1` column
  (the reciprocal of the node's degree), `H` the nodes' own features, `Wl` and `Wr` two `K × N` weights and `b` a bias
  of length `N`. The layer's entry at node `p` and output feature `q` is

      max ((∑ k, (A (p, k) · v (p, 0)) · Wl (k, q)) + (∑ k, H (p, k) · Wr (k, q)) + b q) 0.

  `scaleRows A v` is the mean aggregation (each row of `A` times its entry of the column) and `sage` the layer; both
  are written over the two-product layer `lin2` and the positive part `relu` of the dense-layer module.

  * The host spells the layer as a column broadcast along the features, a product, two `dot_general`s, a sum, the bias
    broadcast in two steps, a sum and a maximum with a broadcast zero (`host_sage`).
  * A vector unit spells it on a block of rows as a column repeated along the lanes, a product, two matrix products of
    operands narrowed to a shorter float format into zero accumulators, a sum, a loaded `1 × N` bias row repeated down
    the rows, a sum and a maximum with a splat zero (`unit_sage`); a further product and bias row on top give the
    classifier head (`unit_head`). Narrowing is the identity on extended reals.
  * An entry of the layer depends on one row of `A`, `v` and `H` only, so a block of rows computes the entries of the
    whole array's layer at those rows (`sage_rows`, `head_rows`). No law beyond reading the same terms is used: the
    identities hold at infinite entries too.
-/
import Idealize.ShloMosaic.Lib.ValueIdx
import Idealize.ShloMosaic.Lib.Pipeline.Value
import Idealize.ShloMosaic.PureOps.Ideal.Laws
import proofs.«170958_j64312840290338_2_alg».proof.Proof.LibCatDot
import proofs.«170958_j64312840290338_2_alg».proof.Proof.LibRowLayers
import proofs.«170958_j64312840290338_2_alg».proof.Proof.LibColumn

noncomputable section

open scoped BigOperators

namespace Cert.Lib.Sage

open Idealize.ShloMosaic Idealize.ShloMosaic.ValueIdx Cert.Lib.BiasDot Cert.Lib.Dense Cert.Lib.RowLayers

variable {m M K N N' : Nat}

/-- Each row of a matrix times that row's entry of a column. -/
def scaleRows (A : (⟨2, ![M, K]⟩ : Shape).Idx → EReal) (v : (⟨2, ![M, 1]⟩ : Shape).Idx → EReal) :
    (⟨2, ![M, K]⟩ : Shape).Idx → EReal := fun i => A i * v (ix2 (i 0) (0 : Fin 1))

/-- The layer: the positive part of the scaled aggregate against `Wl`, plus the own features against `Wr`, plus the bias. -/
def sage (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  relu (lin2 (scaleRows A v) Wl H Wr b)

theorem sage_apply (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) (p : Fin M) (q : Fin N) :
    sage A v H Wl Wr b (ix2 p q)
      = max (((∑ k : Fin K, (A (ix2 p k) * v (ix2 p (0 : Fin 1))) * Wl (ix2 k q))
          + (∑ k : Fin K, H (ix2 p k) * Wr (ix2 k q))) + b (ix1 q)) 0 := rfl

/-! ## The host's spelling -/

/-- An `M × 1` column broadcast along `K` columns reads, at `(p, k)`, the column at `(p, 0)`. -/
theorem hostCol_apply {α : Type} (v : (⟨2, ![M, 1]⟩ : Shape).Idx → α)
    (h : (⟨2, ![M, 1]⟩ : Shape).BroadcastsInDim ⟨2, ![M, K]⟩ ![0, 1]) (p : Fin M) (k : Fin K) :
    broadcastInDim ⟨2, ![M, K]⟩ ![0, 1] h v (ix2 p k) = v (ix2 p (0 : Fin 1)) := by
  refine broadcastInDim_apply ![0, 1] h v (ix2 p k) (ix2 p (0 : Fin 1)) (fun a => ?_)
  match a with
  | ⟨0, _⟩ =>
    show p.val = if M = 1 then 0 else p.val
    split
    · have := p.isLt; omega
    · rfl
  | ⟨1, _⟩ => exact (if_pos rfl).symm

/-- The host's mean aggregation: the aggregate times the column broadcast along the features. -/
theorem host_scaleRows (A : FVec Ideal ⟨2, ![M, K]⟩ .f32) (v : FVec Ideal ⟨2, ![M, 1]⟩ .f32)
    (h : (⟨2, ![M, 1]⟩ : Shape).BroadcastsInDim ⟨2, ![M, K]⟩ ![0, 1]) :
    mulf A (broadcastInDim ⟨2, ![M, K]⟩ ![0, 1] h v) = scaleRows A v := by
  funext i
  obtain ⟨p, k, rfl⟩ : ∃ (p : Fin M) (k : Fin K), i = ix2 p k := ⟨i 0, i 1, eq_ix2 i⟩
  rw [mulf_apply, hostCol_apply]
  rfl

/-- The host's layer. -/
theorem host_sage (d : DotDims ⟨2, ![M, K]⟩ ⟨2, ![K, N]⟩ ⟨2, ![M, N]⟩) (hd : d = DotDims.plain M K N)
    (A : FVec Ideal ⟨2, ![M, K]⟩ .f32) (v : FVec Ideal ⟨2, ![M, 1]⟩ .f32) (H : FVec Ideal ⟨2, ![M, K]⟩ .f32)
    (Wl Wr : FVec Ideal ⟨2, ![K, N]⟩ .f32) (b : FVec Ideal ⟨1, ![N]⟩ .f32)
    (hv : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (addf (Host.dotGeneral d none (mulf A (broadcastInDim ⟨2, ![M, K]⟩ ![0, 1] hv v)) Wl)
          (Host.dotGeneral d none H Wr))
        (broadcastInDim ⟨2, ![M, N]⟩ ![0, 1] h2 (broadcastInDim ⟨2, ![1, N]⟩ ![1] h1 b)))
      (broadcastInDim ⟨2, ![M, N]⟩ dims h0 (constant ⟨0, ![]⟩ .f32 0x00000000#32))
    = sage A v H Wl Wr b := by
  rw [host_scaleRows, Cert.Lib.CatDot.host_lin2 d hd d hd]
  funext i
  rw [maximumf_apply, hostZero_apply]
  rfl

/-! ## A vector unit's spelling, on a block of rows -/

/-- The body's layer: the aggregate times the column repeated along the lanes, two narrowed products into zero, the
    loaded bias row repeated down the rows, the maximum with a splat zero. -/
theorem unit_sage (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![M, K]⟩ .f32)
    (x3 x4 : FVec Ideal ⟨2, ![K, N]⟩ .f32) (x5 : FVec Ideal ⟨2, ![1, N]⟩ .f32)
    (hb0 hb1 hb2 hb3 : FTy.bf16.bits < FTy.f32.bits)
    (hbc : (⟨2, ![M, 1]⟩ : Shape).Broadcasts ⟨2, ![M, K]⟩)
    (hc5 : (⟨2, ![1, N]⟩ : Shape).ShapeCasts ⟨2, ![1, N]⟩) (hbr : (⟨2, ![1, N]⟩ : Shape).Broadcasts ⟨2, ![M, N]⟩) :
    maximumf (addf (addf
          (FloatOps.matmul d none (truncf .bf16 (mulf x0 (broadcastTo ⟨2, ![M, K]⟩ x1 hbc)) hb0) (truncf .bf16 x3 hb1)
            (constant ⟨2, ![M, N]⟩ .f32 0x00000000#32))
          (FloatOps.matmul d none (truncf .bf16 x2 hb2) (truncf .bf16 x4 hb3) (constant ⟨2, ![M, N]⟩ .f32 0x00000000#32)))
        (broadcastTo ⟨2, ![M, N]⟩ (shapeCast ⟨2, ![1, N]⟩ x5 hc5) hbr))
      (broadcast ⟨2, ![M, N]⟩ (Scalar.ofBits (F := Ideal) .f32 0x00000000#32))
    = sage x0 x1 x2 x3 x4 (rowVec x5) := by
  subst hd
  funext i
  obtain ⟨p, q, rfl⟩ : ∃ (p : Fin M) (q : Fin N), i = ix2 p q := ⟨i 0, i 1, eq_ix2 i⟩
  rw [maximumf_apply, addf_apply, addf_apply, rowRepeat_apply, Cert.Lib.PlainDot.matmul_zero_apply,
    Cert.Lib.PlainDot.matmul_zero_apply, broadcast_apply]
  show max (((∑ k : Fin K, (x0 (ix2 p k) * broadcastTo ⟨2, ![M, K]⟩ x1 hbc (ix2 p k)) * x3 (ix2 k q))
      + (∑ k : Fin K, x2 (ix2 p k) * x4 (ix2 k q))) + x5 (ix2 (0 : Fin 1) q)) (Ideal.ofBits .f32 0x00000000#32) = _
  rw [Ideal.ofBits_zero_f32, sage_apply]
  refine congrArg (fun z => max ((z + (∑ k : Fin K, x2 (ix2 p k) * x4 (ix2 k q))) + x5 (ix2 (0 : Fin 1) q)) 0) ?_
  exact Finset.sum_congr rfl fun k _ => by rw [Cert.Lib.Column.colBroadcast_apply]

/-- The classifier head on top of the body's layer: a further narrowed product into zero plus a loaded bias row. -/
theorem unit_head (d : DotDims ⟨2, ![M, K]⟩ ⟨2, ![K, N]⟩ ⟨2, ![M, N]⟩) (hd : d = DotDims.plain M K N)
    (d' : DotDims ⟨2, ![M, N]⟩ ⟨2, ![N, N']⟩ ⟨2, ![M, N']⟩) (hd' : d' = DotDims.plain M N N')
    (x0 : FVec Ideal ⟨2, ![M, K]⟩ .f32) (x1 : FVec Ideal ⟨2, ![M, 1]⟩ .f32) (x2 : FVec Ideal ⟨2, ![M, K]⟩ .f32)
    (x3 x4 : FVec Ideal ⟨2, ![K, N]⟩ .f32) (x5 : FVec Ideal ⟨2, ![1, N]⟩ .f32)
    (x6 : FVec Ideal ⟨2, ![N, N']⟩ .f32) (x7 : FVec Ideal ⟨2, ![1, N']⟩ .f32)
    (hb0 hb1 hb2 hb3 hb4 hb5 : FTy.bf16.bits < FTy.f32.bits)
    (hbc : (⟨2, ![M, 1]⟩ : Shape).Broadcasts ⟨2, ![M, K]⟩)
    (hc5 : (⟨2, ![1, N]⟩ : Shape).ShapeCasts ⟨2, ![1, N]⟩) (hbr : (⟨2, ![1, N]⟩ : Shape).Broadcasts ⟨2, ![M, N]⟩)
    (hc7 : (⟨2, ![1, N']⟩ : Shape).ShapeCasts ⟨2, ![1, N']⟩) (hbr' : (⟨2, ![1, N']⟩ : Shape).Broadcasts ⟨2, ![M, N']⟩) :
    addf (FloatOps.matmul d' none (truncf .bf16
          (maximumf (addf (addf
              (FloatOps.matmul d none (truncf .bf16 (mulf x0 (broadcastTo ⟨2, ![M, K]⟩ x1 hbc)) hb0) (truncf .bf16 x3 hb1)
                (constant ⟨2, ![M, N]⟩ .f32 0x00000000#32))
              (FloatOps.matmul d none (truncf .bf16 x2 hb2) (truncf .bf16 x4 hb3) (constant ⟨2, ![M, N]⟩ .f32 0x00000000#32)))
            (broadcastTo ⟨2, ![M, N]⟩ (shapeCast ⟨2, ![1, N]⟩ x5 hc5) hbr))
          (broadcast ⟨2, ![M, N]⟩ (Scalar.ofBits (F := Ideal) .f32 0x00000000#32))) hb4)
        (truncf .bf16 x6 hb5) (constant ⟨2, ![M, N']⟩ .f32 0x00000000#32))
      (broadcastTo ⟨2, ![M, N']⟩ (shapeCast ⟨2, ![1, N']⟩ x7 hc7) hbr')
    = lin (sage x0 x1 x2 x3 x4 (rowVec x5)) x6 (rowVec x7) := by
  rw [unit_sage d hd x0 x1 x2 x3 x4 x5 hb0 hb1 hb2 hb3 hbc hc5 hbr]
  exact linLayer_eq d' hd' (sage x0 x1 x2 x3 x4 (rowVec x5)) x6 x7 hb4 hb5 hc7 hbr'

/-! ## A block of rows against the whole array -/

/-- An entry of the layer on a block of rows is the entry of the whole array's layer at the matching row and the same
    output feature: row `j 0` of the block's three row-indexed operands is row `i 0` of the array's. -/
theorem sage_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (p' : Fin m) (p : Fin M) (q : Fin N)
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    sage x0 x1 x2 Wl Wr b (ix2 p' q) = sage A v H Wl Wr b (ix2 p q) := by
  rw [sage_apply, sage_apply, h1]
  simp only [h0, h2]

/-- The same for the classifier head on top of the layer. -/
theorem head_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (Wc : (⟨2, ![N, N']⟩ : Shape).Idx → EReal) (bc : (⟨1, ![N']⟩ : Shape).Idx → EReal)
    (p' : Fin m) (p : Fin M) (q : Fin N')
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    lin (sage x0 x1 x2 Wl Wr b) Wc bc (ix2 p' q) = lin (sage A v H Wl Wr b) Wc bc (ix2 p q) := by
  rw [lin_apply, lin_apply]
  refine congrArg (fun z => z + bc (ix1 q)) (Finset.sum_congr rfl fun k _ => ?_)
  rw [sage_rows x0 x1 x2 A v H Wl Wr b p' p k h0 h1 h2]

end Cert.Lib.Sage

end
-- ==== Proof.LibSageSum.lean ====
/-
  One mean-aggregation graph layer on the extended reals whose two products are added one after the other, as a
  whole-array function, and its two spellings.

  For `M` nodes with `K` input features: `A` holds each node's summed neighbour features, `v` an `M × 1` column of
  per-node factors, `H` the nodes' own features, `Wl` and `Wr` two `K × N` weights and `b` a bias of length `N`.
  The layer before its positive part has, at node `p` and output feature `q`, the entry

      ((∑ k, (A (p, k) · v (p, 0)) · Wl (k, q)) + b q) + ∑ k, H (p, k) · Wr (k, q)

  (`sagePre`): the bias joins the first product before the second product is added, which is the order both spellings
  below use, so no rearrangement of a sum of extended reals is needed.

  * A vector unit spells it on a block of rows as the column repeated along the lanes, a product of entries, a matrix
    product into a zero accumulator, the bias viewed as a `1 × N` row and repeated down the rows, a sum, a second matrix
    product into zero and a sum (`unit_sagePre`); a further product plus a bias row is a linear layer (`unit_lin`).
  * The host spells it with a QUOTIENT: each row of `A` divided by a per-node divisor `mx` (a vector of length `M` made a
    column and spread along the features), two `dot_general`s and the bias broadcast in two steps (`host_sagePre`). The
    quotient by `mx p` is the product with `v (p, 0)` whenever that holds of every extended real (`hv`) — which it does
    when `mx p` is a non-zero real and `v (p, 0)` its reciprocal (`div_eq_mul_recip`).
  * An entry depends on one row of `A`, `v` and `H` only, so a block of rows computes the whole array's entries at
    those rows (`sagePre_rows`, `lin_rows`).
-/
import Idealize.ShloMosaic.Lib.ValueIdx
import Idealize.ShloMosaic.Lib.Pipeline.Value
import Idealize.ShloMosaic.Lib.IdealHost
import Idealize.ShloMosaic.PureOps.Ideal.Laws
import proofs.«170958_j64312840290338_2_alg».proof.Proof.LibDense
import proofs.«170958_j64312840290338_2_alg».proof.Proof.LibColumn

noncomputable section

open scoped BigOperators

namespace Cert.Lib.SageSum

open Idealize.ShloMosaic Idealize.ShloMosaic.ValueIdx Cert.Lib.BiasDot Cert.Lib.Dense

variable {m M K N N' : Nat}

/-- The layer before its positive part. -/
def sagePre (A : (⟨2, ![M, K]⟩ : Shape).Idx → EReal) (v : (⟨2, ![M, 1]⟩ : Shape).Idx → EReal)
    (H : (⟨2, ![M, K]⟩ : Shape).Idx → EReal) (Wl : (⟨2, ![K, N]⟩ : Shape).Idx → EReal)
    (b : (⟨1, ![N]⟩ : Shape).Idx → EReal) (Wr : (⟨2, ![K, N]⟩ : Shape).Idx → EReal) :
    (⟨2, ![M, N]⟩ : Shape).Idx → EReal :=
  fun i => ((∑ k : Fin K, (A (ix2 (i 0) k) * v (ix2 (i 0) (0 : Fin 1))) * Wl (ix2 k (i 1))) + b (ix1 (i 1)))
    + ∑ k : Fin K, H (ix2 (i 0) k) * Wr (ix2 k (i 1))

theorem sagePre_apply (A : (⟨2, ![M, K]⟩ : Shape).Idx → EReal) (v : (⟨2, ![M, 1]⟩ : Shape).Idx → EReal)
    (H : (⟨2, ![M, K]⟩ : Shape).Idx → EReal) (Wl : (⟨2, ![K, N]⟩ : Shape).Idx → EReal)
    (b : (⟨1, ![N]⟩ : Shape).Idx → EReal) (Wr : (⟨2, ![K, N]⟩ : Shape).Idx → EReal) (p : Fin M) (q : Fin N) :
    sagePre A v H Wl b Wr (ix2 p q)
      = ((∑ k : Fin K, (A (ix2 p k) * v (ix2 p (0 : Fin 1))) * Wl (ix2 k q)) + b (ix1 q))
        + ∑ k : Fin K, H (ix2 p k) * Wr (ix2 k q) := rfl

/-! ## A vector unit's spelling, on a block of rows -/

/-- The body's layer before the positive part. -/
theorem unit_sagePre (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![M, K]⟩ .f32)
    (x3 : FVec Ideal ⟨2, ![K, N]⟩ .f32) (x4 : FVec Ideal ⟨1, ![N]⟩ .f32) (x5 : FVec Ideal ⟨2, ![K, N]⟩ .f32)
    (hc0 : (⟨2, ![M, K]⟩ : Shape).ShapeCasts ⟨2, ![M, K]⟩) (hc1 : (⟨2, ![M, 1]⟩ : Shape).ShapeCasts ⟨2, ![M, 1]⟩)
    (hbc : (⟨2, ![M, 1]⟩ : Shape).Broadcasts ⟨2, ![M, K]⟩)
    (hcb : (⟨1, ![N]⟩ : Shape).ShapeCasts ⟨2, ![1, N]⟩) (hbr : (⟨2, ![1, N]⟩ : Shape).Broadcasts ⟨2, ![M, N]⟩) :
    addf (addf
        (FloatOps.matmul d none (mulf (shapeCast ⟨2, ![M, K]⟩ x0 hc0)
            (broadcastTo ⟨2, ![M, K]⟩ (shapeCast ⟨2, ![M, 1]⟩ x1 hc1) hbc)) x3
          (constant ⟨2, ![M, N]⟩ .f32 0x00000000#32))
        (broadcastTo ⟨2, ![M, N]⟩ (shapeCast ⟨2, ![1, N]⟩ x4 hcb) hbr))
      (FloatOps.matmul d none x2 x5 (constant ⟨2, ![M, N]⟩ .f32 0x00000000#32))
    = sagePre x0 x1 x2 x3 x4 x5 := by
  subst hd
  rw [shapeCast_self, shapeCast_self]
  funext i
  obtain ⟨p, q, rfl⟩ : ∃ (p : Fin M) (q : Fin N), i = ix2 p q := ⟨i 0, i 1, eq_ix2 i⟩
  rw [addf_apply, biasDot_apply, Cert.Lib.PlainDot.matmul_zero_apply, sagePre_apply]
  refine congrArg (fun z => (z + x4 (ix1 q)) + ∑ k : Fin K, x2 (ix2 p k) * x5 (ix2 k q))
    (Finset.sum_congr rfl fun k _ => ?_)
  rw [mulf_apply, Cert.Lib.Column.colBroadcast_apply]

/-- A product into zero plus a bias viewed as a row and repeated down the rows is the linear layer. -/
theorem unit_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (FloatOps.matmul d none X W (constant ⟨2, ![M, N]⟩ .f32 0x00000000#32))
        (broadcastTo ⟨2, ![M, N]⟩ (shapeCast ⟨2, ![1, N]⟩ b hc) hb)
    = lin X W b := by
  subst hd
  funext i
  obtain ⟨p, q, rfl⟩ : ∃ (p : Fin M) (q : Fin N), i = ix2 p q := ⟨i 0, i 1, eq_ix2 i⟩
  exact biasDot_apply none X W b hc hb p q

/-! ## The host's spelling -/

/-- A vector of length `M` made an `M × 1` column and spread along `K` columns reads, at `(p, k)`, the vector at `p`. -/
theorem hostColSpread_apply {α : Type} (mx : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 mx) (ix2 p k) = mx (ix1 p) := by
  refine (broadcastInDim_apply ![0, 1] h2 _ (ix2 p k) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply ![0] h1 mx (ix2 p (0 : Fin 1)) (ix1 p) (fun a => ?_)
    match a with
    | ⟨0, _⟩ =>
      show p.val = if M = 1 then 0 else p.val
      split
      · have := p.isLt; omega
      · rfl

/-- A vector of length `M` made an `M × 1` column reads, at `(p, 0)`, the vector at `p`. -/
theorem hostCol_apply {α : Type} (mx : (⟨1, ![M]⟩ : Shape).Idx → α)
    (h1 : (⟨1, ![M]⟩ : Shape).BroadcastsInDim ⟨2, ![M, 1]⟩ ![0]) (p : Fin M) :
    broadcastInDim ⟨2, ![M, 1]⟩ ![0] h1 mx (ix2 p (0 : Fin 1)) = mx (ix1 p) := by
  refine broadcastInDim_apply ![0] h1 mx (ix2 p (0 : Fin 1)) (ix1 p) (fun a => ?_)
  match a with
  | ⟨0, _⟩ =>
    show p.val = if M = 1 then 0 else p.val
    split
    · have := p.isLt; omega
    · rfl

/-- The host's layer before the positive part: the aggregate divided by the spread divisor, against `Wl`, plus the bias,
    plus the own features against `Wr` — the quotient by `mx p` being the product with `v (p, 0)`. -/
theorem host_sagePre (d : DotDims ⟨2, ![M, K]⟩ ⟨2, ![K, N]⟩ ⟨2, ![M, N]⟩) (hd : d = DotDims.plain M K N)
    (A : FVec Ideal ⟨2, ![M, K]⟩ .f32) (mx : FVec Ideal ⟨1, ![M]⟩ .f32) (H : FVec Ideal ⟨2, ![M, K]⟩ .f32)
    (Wl : FVec Ideal ⟨2, ![K, N]⟩ .f32) (b : FVec Ideal ⟨1, ![N]⟩ .f32) (Wr : FVec Ideal ⟨2, ![K, N]⟩ .f32)
    (hm1 : (⟨1, ![M]⟩ : Shape).BroadcastsInDim ⟨2, ![M, 1]⟩ ![0])
    (hm2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (v : (⟨2, ![M, 1]⟩ : Shape).Idx → EReal)
    (hv : ∀ (p : Fin M) (a : EReal), Ideal.div a (mx (ix1 p)) = a * v (ix2 p (0 : Fin 1))) :
    addf (addf (Host.dotGeneral d none
            (Host.divf A (broadcastInDim ⟨2, ![M, K]⟩ ![0, 1] hm2 (broadcastInDim ⟨2, ![M, 1]⟩ ![0] hm1 mx))) Wl)
          (broadcastInDim ⟨2, ![M, N]⟩ ![0, 1] h2 (broadcastInDim ⟨2, ![1, N]⟩ ![1] h1 b)))
      (Host.dotGeneral d none H Wr)
    = sagePre A v H Wl b Wr := by
  subst hd
  funext i
  obtain ⟨p, q, rfl⟩ : ∃ (p : Fin M) (q : Fin N), i = ix2 p q := ⟨i 0, i 1, eq_ix2 i⟩
  rw [addf_apply, addf_apply, hostRow_apply, sagePre_apply]
  refine congrArg₂ (fun y z => (y + b (ix1 q)) + z) ?_ (Cert.Lib.PlainDot.dotGeneral_apply none _ H Wr p q)
  refine (Cert.Lib.PlainDot.dotGeneral_apply none _ _ Wl p q).trans (Finset.sum_congr rfl fun k _ => ?_)
  rw [hostDivf_apply, hostColSpread_apply, hv]

/-- The host's linear layer: a `dot_general` plus the bias broadcast in two steps. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 b))
    = lin X W b := by
  subst hd
  funext i
  obtain ⟨p, q, rfl⟩ : ∃ (p : Fin M) (q : Fin N), i = ix2 p q := ⟨i 0, i 1, eq_ix2 i⟩
  rw [addf_apply, hostRow_apply]
  exact congrArg (fun z => z + b (ix1 q)) (Cert.Lib.PlainDot.dotGeneral_apply none _ X W p q)

/-- The host's positive part: the maximum with a broadcast zero. -/
theorem host_relu {t : Shape} (X : FVec Ideal t .f32) (dims : Fin 0 → Fin t.rank)
    (h0 : (⟨0, ![]⟩ : Shape).BroadcastsInDim t dims) :
    maximumf X (broadcastInDim t dims h0 (constant ⟨0, ![]⟩ .f32 0x00000000#32)) = relu X := by
  funext i
  rw [maximumf_apply, hostZero_apply]
  rfl

/-- A vector unit's positive part: the maximum with a splat zero. -/
theorem unit_relu {t : Shape} (X : FVec Ideal t .f32) :
    maximumf X (broadcast t (Scalar.ofBits (F := Ideal) .f32 0x00000000#32)) = relu X := by
  funext i
  rw [maximumf_apply, broadcast_apply]
  show max (X i) (Ideal.ofBits .f32 0x00000000#32) = _
  rw [Ideal.ofBits_zero_f32]
  rfl

/-! ## The quotient as a product -/

/-- Dividing by a non-zero real is multiplying by the quotient of one by it. -/
theorem div_eq_mul_recip {r : ℝ} (hr : r ≠ 0) (a : EReal) :
    Ideal.div a (r : EReal) = a * Ideal.div 1 (r : EReal) := by
  rw [Ideal.div_coe hr, Ideal.div_coe hr, one_mul]

/-! ## A block of rows against the whole array -/

/-- An entry of the layer on a block of rows is the entry of the whole array's layer at the matching row. -/
theorem sagePre_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (p' : Fin m) (p : Fin M) (q : Fin N)
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    sagePre x0 x1 x2 Wl b Wr (ix2 p' q) = sagePre A v H Wl b Wr (ix2 p q) := by
  rw [sagePre_apply, sagePre_apply, h1]
  simp only [h0, h2]

/-- An entry of a linear layer on a block of rows is the whole array's entry at the matching row. -/
theorem lin_rows (X : (⟨2, ![m, K]⟩ : Shape).Idx → EReal) (Y : (⟨2, ![M, K]⟩ : Shape).Idx → EReal)
    (W : (⟨2, ![K, N]⟩ : Shape).Idx → EReal) (b : (⟨1, ![N]⟩ : Shape).Idx → EReal)
    (p' : Fin m) (p : Fin M) (q : Fin N) (h : ∀ k : Fin K, X (ix2 p' k) = Y (ix2 p k)) :
    lin X W b (ix2 p' q) = lin Y W b (ix2 p q) := by
  rw [lin_apply, lin_apply]
  simp only [h]

/-! ## A block of rows at a row offset -/

/-- The positive part of the layer on the block of rows that starts at row `off`: its entry at `j` is the whole array's
    at the index `i` whose row is `off` plus `j`'s and whose column is `j`'s. -/
theorem relu_sagePre_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N]⟩ : Shape).Idx) (i : (⟨2, ![M, N]⟩ : Shape).Idx)
    (hi0 : (i 0).val = off + (j 0).val) (hi1 : (i 1).val = (j 1).val) :
    relu (sagePre x0 x1 x2 Wl b Wr) j = relu (sagePre A v H Wl b Wr) i := by
  obtain ⟨p', q, rfl⟩ : ∃ (p' : Fin m) (q : Fin N), j = ix2 p' q := ⟨j 0, j 1, eq_ix2 j⟩
  obtain ⟨p, q', rfl⟩ : ∃ (p : Fin M) (q' : Fin N), i = ix2 p q' := ⟨i 0, i 1, eq_ix2 i⟩
  obtain rfl : q' = q := Fin.ext hi1
  exact congrArg (fun z => max z 0)
    (sagePre_rows x0 x1 x2 A v H Wl b Wr p' p q' (fun k => h0 p' p k hi0) (h1 p' p hi0) (fun k => h2 p' p k hi0))

/-- The same for a linear layer on top of the layer without a positive part. -/
theorem lin_sagePre_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (Wc : (⟨2, ![N, N']⟩ : Shape).Idx → EReal) (bc : (⟨1, ![N']⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N']⟩ : Shape).Idx) (i : (⟨2, ![M, N']⟩ : Shape).Idx)
    (hi0 : (i 0).val = off + (j 0).val) (hi1 : (i 1).val = (j 1).val) :
    lin (sagePre x0 x1 x2 Wl b Wr) Wc bc j = lin (sagePre A v H Wl b Wr) Wc bc i := by
  obtain ⟨p', q, rfl⟩ : ∃ (p' : Fin m) (q : Fin N'), j = ix2 p' q := ⟨j 0, j 1, eq_ix2 j⟩
  obtain ⟨p, q', rfl⟩ : ∃ (p : Fin M) (q' : Fin N'), i = ix2 p q' := ⟨i 0, i 1, eq_ix2 i⟩
  obtain rfl : q' = q := Fin.ext hi1
  exact lin_rows _ _ Wc bc p' p q' fun k =>
    sagePre_rows x0 x1 x2 A v H Wl b Wr p' p k (fun k' => h0 p' p k' hi0) (h1 p' p hi0) (fun k' => h2 p' p k' hi0)

end Cert.Lib.SageSum

end
-- ==== Proof.LibSageLaw.lean ====
/-
  The layers of a four-layer mean-aggregation graph network and its dot-product decoder on the extended reals, as
  whole-array functions, and the law that joins the two arrangements the programs use.

  One layer takes the summed neighbour features `A`, a per-node column `v`, the nodes' own features `H`, two weights and
  a bias. Both arrangements compute, at node `p` and output feature `q`, the three terms

      S₁ = ∑ k, (A (p, k) · v (p, 0)) · Wl (k, q),    S₂ = ∑ k, H (p, k) · Wr (k, q),    b q;

  one adds them as (S₁ + S₂) + b q (`pre`), the other as (S₁ + b q) + S₂ (`sagePre`). Addition of extended reals is
  commutative and associative, so the two agree at every entry, infinite ones included (`sagePre_eq_pre`).

  The column `v` is the reciprocal 1 / max(d, 1) of a per-node count `d`; the other arrangement divides by max(d, 1)
  instead. Since max(d, 1) ≥ 1 is never zero, a / max(d, 1) = a · (1 / max(d, 1)) for every extended real `a`
  (`div_max_one`): both sides are a · (max(d, 1))⁻¹.

  The decoder takes two L × K arrays and returns, at row p, ∑ k, X (p, k) · Y (p, k) (`rowDot`).
-/
import Idealize.ShloMosaic.Lib.ValueIdx
import Idealize.ShloMosaic.Lib.Pipeline.Value
import Idealize.ShloMosaic.Lib.IdealHost
import Idealize.ShloMosaic.PureOps.Ideal.Laws
import proofs.«170958_j64312840290338_2_alg».proof.Proof.LibSage
import proofs.«170958_j64312840290338_2_alg».proof.Proof.LibSageSum

noncomputable section

open scoped BigOperators

namespace Cert.Net

open Idealize.ShloMosaic Idealize.ShloMosaic.ValueIdx Cert.Lib.BiasDot Cert.Lib.Dense Cert.Lib.RowLayers
open Cert.Lib.Sage Cert.Lib.SageSum

variable {m M K N L : Nat}

/-! ## The layer before its positive part, both products added first -/

/-- (S₁ + S₂) + b. -/
def pre (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  lin2 (scaleRows A v) Wl H Wr b

theorem pre_apply (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) (p : Fin M) (q : Fin N) :
    pre A v H Wl Wr b (ix2 p q)
      = ((∑ k : Fin K, (A (ix2 p k) * v (ix2 p (0 : Fin 1))) * Wl (ix2 k q))
          + (∑ k : Fin K, H (ix2 p k) * Wr (ix2 k q))) + b (ix1 q) := rfl

/-- The layer with its positive part is the positive part of `pre`. -/
theorem sage_eq_relu_pre (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) : sage A v H Wl Wr b = relu (pre A v H Wl Wr b) := rfl

/-- The two orders of adding the three terms agree: (S₁ + b) + S₂ = (S₁ + S₂) + b. -/
theorem sagePre_eq_pre (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) : sagePre A v H Wl b Wr = pre A v H Wl Wr b := by
  funext i
  obtain ⟨p, q, rfl⟩ : ∃ (p : Fin M) (q : Fin N), i = ix2 p q := ⟨i 0, i 1, eq_ix2 i⟩
  rw [sagePre_apply, pre_apply]
  exact add_right_comm _ _ _

/-! ## The quotient by max(d, 1) as a product -/

/-- max(d, 1) is never zero. -/
theorem max_one_ne_zero (d : EReal) : max d 1 ≠ 0 :=
  ne_of_gt (lt_of_lt_of_le zero_lt_one (le_max_right d 1))

/-- Off zero the quotient is the product with the quotient of one. -/
theorem div_eq_mul_one_div {y : EReal} (hy : y ≠ 0) (a : EReal) : Ideal.div a y = a * Ideal.div 1 y := by
  rw [Ideal.div, if_neg hy, Ideal.div, if_neg hy, one_mul]

/-- a / max(d, 1) = a · (1 / max(d, 1)), with the float words of one read as the number one. -/
theorem div_max_one (d a : EReal) :
    Ideal.div a (max d (Ideal.ofBits .f32 0x3F800000#32))
      = a * Ideal.div (Ideal.ofBits .f32 0x3F800000#32) (max d (Ideal.ofBits .f32 0x3F800000#32)) := by
  rw [Ideal.ofBits_one_f32]
  exact div_eq_mul_one_div (max_one_ne_zero d) a

/-! ## A vector unit's spelling of `pre`, on a block of rows -/

/-- The aggregate times the column repeated along the lanes, two narrowed products into zero added, the loaded bias row
    repeated down the rows added. Narrowing is the identity on extended reals. -/
theorem unit_pre (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![M, K]⟩ .f32)
    (x3 x4 : FVec Ideal ⟨2, ![K, N]⟩ .f32) (x5 : FVec Ideal ⟨2, ![1, N]⟩ .f32)
    (hb0 hb1 hb2 hb3 : FTy.bf16.bits < FTy.f32.bits)
    (hbc : (⟨2, ![M, 1]⟩ : Shape).Broadcasts ⟨2, ![M, K]⟩)
    (hc5 : (⟨2, ![1, N]⟩ : Shape).ShapeCasts ⟨2, ![1, N]⟩) (hbr : (⟨2, ![1, N]⟩ : Shape).Broadcasts ⟨2, ![M, N]⟩) :
    addf (addf
          (FloatOps.matmul d none (truncf .bf16 (mulf x0 (broadcastTo ⟨2, ![M, K]⟩ x1 hbc)) hb0) (truncf .bf16 x3 hb1)
            (constant ⟨2, ![M, N]⟩ .f32 0x00000000#32))
          (FloatOps.matmul d none (truncf .bf16 x2 hb2) (truncf .bf16 x4 hb3) (constant ⟨2, ![M, N]⟩ .f32 0x00000000#32)))
        (broadcastTo ⟨2, ![M, N]⟩ (shapeCast ⟨2, ![1, N]⟩ x5 hc5) hbr)
    = pre x0 x1 x2 x3 x4 (rowVec x5) := by
  subst hd
  funext i
  obtain ⟨p, q, rfl⟩ : ∃ (p : Fin M) (q : Fin N), i = ix2 p q := ⟨i 0, i 1, eq_ix2 i⟩
  rw [addf_apply, addf_apply, rowRepeat_apply, Cert.Lib.PlainDot.matmul_zero_apply,
    Cert.Lib.PlainDot.matmul_zero_apply, pre_apply]
  show ((∑ k : Fin K, (x0 (ix2 p k) * broadcastTo ⟨2, ![M, K]⟩ x1 hbc (ix2 p k)) * x3 (ix2 k q))
      + (∑ k : Fin K, x2 (ix2 p k) * x4 (ix2 k q))) + x5 (ix2 (0 : Fin 1) q) = _
  refine congrArg (fun z => (z + (∑ k : Fin K, x2 (ix2 p k) * x4 (ix2 k q))) + x5 (ix2 (0 : Fin 1) q)) ?_
  exact Finset.sum_congr rfl fun k _ => by rw [Cert.Lib.Column.colBroadcast_apply]

/-- An entry of `pre` on a block of rows is the entry of the whole array's `pre` at the matching row. -/
theorem pre_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (p' : Fin m) (p : Fin M) (q : Fin N)
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    pre x0 x1 x2 Wl Wr b (ix2 p' q) = pre A v H Wl Wr b (ix2 p q) := by
  rw [pre_apply, pre_apply, h1]
  simp only [h0, h2]

/-! ## A block of rows at a row offset -/

/-- The layer on the block of rows that starts at row `off`: its entry at `j` is the whole array's at the index `i`
    whose row is `off` plus `j`'s and whose column is `j`'s. -/
theorem sage_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N]⟩ : Shape).Idx) (i : (⟨2, ![M, N]⟩ : Shape).Idx)
    (hi0 : (i 0).val = off + (j 0).val) (hi1 : (i 1).val = (j 1).val) :
    sage x0 x1 x2 Wl Wr b j = sage A v H Wl Wr b i := by
  obtain ⟨p', q, rfl⟩ : ∃ (p' : Fin m) (q : Fin N), j = ix2 p' q := ⟨j 0, j 1, eq_ix2 j⟩
  obtain ⟨p, q', rfl⟩ : ∃ (p : Fin M) (q' : Fin N), i = ix2 p q' := ⟨i 0, i 1, eq_ix2 i⟩
  obtain rfl : q' = q := Fin.ext hi1
  exact sage_rows x0 x1 x2 A v H Wl Wr b p' p q' (fun k => h0 p' p k hi0) (h1 p' p hi0) (fun k => h2 p' p k hi0)

/-- The same for the layer without its positive part. -/
theorem pre_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N]⟩ : Shape).Idx) (i : (⟨2, ![M, N]⟩ : Shape).Idx)
    (hi0 : (i 0).val = off + (j 0).val) (hi1 : (i 1).val = (j 1).val) :
    pre x0 x1 x2 Wl Wr b j = pre A v H Wl Wr b i := by
  obtain ⟨p', q, rfl⟩ : ∃ (p' : Fin m) (q : Fin N), j = ix2 p' q := ⟨j 0, j 1, eq_ix2 j⟩
  obtain ⟨p, q', rfl⟩ : ∃ (p : Fin M) (q' : Fin N), i = ix2 p q' := ⟨i 0, i 1, eq_ix2 i⟩
  obtain rfl : q' = q := Fin.ext hi1
  exact pre_rows x0 x1 x2 A v H Wl Wr b p' p q' (fun k => h0 p' p k hi0) (h1 p' p hi0) (fun k => h2 p' p k hi0)

/-! ## The decoder -/

/-- The inner product of matching rows. -/
def rowDot (X Y : (⟨2, ![L, K]⟩ : Shape).Idx → EReal) : (⟨1, ![L]⟩ : Shape).Idx → EReal :=
  fun i => ∑ k : Fin K, X (ix2 (i 0) k) * Y (ix2 (i 0) k)

theorem rowDot_apply (X Y : (⟨2, ![L, K]⟩ : Shape).Idx → EReal) (p : Fin L) :
    rowDot X Y (ix1 p) = ∑ k : Fin K, X (ix2 p k) * Y (ix2 p k) := rfl

/-- The index a lane sum reads at row `p`, lane `k`. -/
theorem lift_lane (h : (⟨2, ![L, K]⟩ : Shape).Reduces [1] ⟨1, ![L]⟩) (p : Fin L) (k : Fin K) :
    h.lift (ix1 p) k = ix2 p k := by
  funext a
  apply Fin.ext
  match a with
  | ⟨0, _⟩ => rfl
  | ⟨1, _⟩ => rfl

/-- A vector unit's spelling on a block of rows: the product of entries summed along the lanes, viewed as an
    L × 1 column, read at (p, 0). -/
theorem unit_rowDot (x0 x1 : FVec Ideal ⟨2, ![L, K]⟩ .f32) (acc : BitVec FTy.f32.bits)
    (h : (⟨2, ![L, K]⟩ : Shape).Reduces [1] ⟨1, ![L]⟩) (hφ : FKind.Formats FTy.f32)
    (hacc : acc = FKind.add.neutral FTy.f32 hφ)
    (hc : (⟨1, ![L]⟩ : Shape).ShapeCasts ⟨2, ![L, 1]⟩) (p : Fin L) :
    shapeCast ⟨2, ![L, 1]⟩ (multiReduction .add [1] ⟨1, ![L]⟩ (mulf x0 x1) acc h hφ hacc) hc (ix2 p (0 : Fin 1))
      = rowDot x0 x1 (ix1 p) := by
  refine (Cert.Lib.Column.col_apply _ hc p).trans ?_
  refine (Ideal.multiReduction_add_single (mulf x0 x1) acc h hφ hacc (ix1 p)).trans ?_
  rw [rowDot_apply]
  exact Finset.sum_congr rfl fun k _ => by rw [lift_lane h p k]; rfl

/-- The decoder as an L × 1 column. -/
def rowDotCol (X Y : (⟨2, ![L, K]⟩ : Shape).Idx → EReal) : (⟨2, ![L, 1]⟩ : Shape).Idx → EReal :=
  fun i => rowDot X Y (ix1 (i 0))

/-- A block of rows of the decoder's column at a row offset: its entry at `j` is the whole column's at the index whose
    row is `off` plus `j`'s. -/
theorem rowDot_block {l : Nat} (off : Nat) (x0 x1 : FVec Ideal ⟨2, ![l, K]⟩ .f32)
    (X Y : (⟨2, ![L, K]⟩ : Shape).Idx → EReal) (acc : BitVec FTy.f32.bits)
    (h : (⟨2, ![l, K]⟩ : Shape).Reduces [1] ⟨1, ![l]⟩) (hφ : FKind.Formats FTy.f32)
    (hacc : acc = FKind.add.neutral FTy.f32 hφ) (hc : (⟨1, ![l]⟩ : Shape).ShapeCasts ⟨2, ![l, 1]⟩)
    (h0 : ∀ (p' : Fin l) (p : Fin L) (k : Fin K), p.val = off + p'.val → x0 (ix2 p' k) = X (ix2 p k))
    (h1 : ∀ (p' : Fin l) (p : Fin L) (k : Fin K), p.val = off + p'.val → x1 (ix2 p' k) = Y (ix2 p k))
    (j : (⟨2, ![l, 1]⟩ : Shape).Idx) (i : (⟨2, ![L, 1]⟩ : Shape).Idx) (hi0 : (i 0).val = off + (j 0).val) :
    shapeCast ⟨2, ![l, 1]⟩ (multiReduction .add [1] ⟨1, ![l]⟩ (mulf x0 x1) acc h hφ hacc) hc j = rowDotCol X Y i := by
  obtain ⟨p', z, rfl⟩ : ∃ (p' : Fin l) (z : Fin 1), j = ix2 p' z := ⟨j 0, j 1, eq_ix2 j⟩
  obtain rfl : z = 0 := Subsingleton.elim _ _
  rw [unit_rowDot x0 x1 acc h hφ hacc hc p']
  show (∑ k : Fin K, x0 (ix2 p' k) * x1 (ix2 p' k)) = ∑ k : Fin K, X (ix2 (i 0) k) * Y (ix2 (i 0) k)
  exact Finset.sum_congr rfl fun k _ => by rw [h0 p' (i 0) k hi0, h1 p' (i 0) k hi0]

end Cert.Net

end
-- ==== Proof.Layer0.lean ====
/-
  Region 0 of the kernel: one graph layer with its positive part, 128 input features to 256 output features, computed
  2000 rows at a time over 50 grid points.

  At point t the body loads rows 2000·t … 2000·t + 1999 of the summed neighbour features, of the reciprocal-count
  column and of the nodes' own features, together with the whole of both weights and the bias row, and stores the
  layer of that block of rows. An entry of the layer depends on one row of the three row-indexed operands only, so
  the stored block is rows 2000·t … of the layer of the whole arrays; the 50 blocks tile the 100000 rows, so the
  result array ends holding the layer of the whole arrays as the region found them.
-/
import proofs.«170958_j64312840290338_2_alg».proof.Proof.Gen.KernelIdeal.Frame
import Idealize.ShloMosaic.Lib.Pipeline.Value
import proofs.«170958_j64312840290338_2_alg».proof.Proof.LibSageLaw

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.Sage Cert.Lib.RowLayers Cert.Lib.Dense Cert.Net

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x256.Idx → EReal :=
  sage (M := 100000) (K := 128) (N := 256) (V c main_v34) (V c main_v24) (V c main_v15) (V c main_arg4) (V c main_arg6)
    (rowVec (V c main_v35))

/-- The body's stored value is the layer of its loaded blocks. -/
theorem pay_eq (x0 : Vec Ideal S2000x128 .f32) (x1 : Vec Ideal S2000x1 .f32) (x2 : Vec Ideal S2000x128 .f32)
    (x3 : Vec Ideal S128x256 .f32) (x5 : Vec Ideal S128x256 .f32) (x4 : Vec Ideal S1x256 .f32) :
    k0_pay1 x0 x1 x2 x3 x5 x4 = sage (M := 2000) (K := 128) (N := 256) x0 x1 x2 x3 x5 (rowVec x4) := by
  unfold k0_pay1
  dsimp only
  rw [shapeCast_self x0, shapeCast_self x1, shapeCast_self x2]
  exact unit_sage dot_S2000x128_S128x256_S2000x256_1_0_0_1_n_n rfl x0 x1 x2 x3 x5 x4 _ _ _ _ _ _ _

/-- The printed index maps over the grid: the row-indexed windows and the result sit at block row t, the weights and
    the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first weight's block is the whole weight. -/
theorem blk_wl (c : Dev nD) (t : Fin cfg0.N) : iblk0 V c 3 t = V c main_arg4 := by
  obtain ⟨-, -, -, -, -, -, e6, e7, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- The second weight's block is the whole weight. -/
theorem blk_wr (c : Dev nD) (t : Fin cfg0.N) : iblk0 V c 5 t = V c main_arg6 := by
  obtain ⟨-, -, -, -, -, -, -, -, -, -, e10, e11, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- The bias row's block is the whole row. -/
theorem blk_bl (c : Dev nD) (t : Fin cfg0.N) : iblk0 V c 4 t = V c main_v35 := by
  obtain ⟨-, -, -, -, -, -, -, -, e8, e9, -⟩ := idx_facts t
  funext y
  show V c main_v35 (((cfg0.win 4).blk t).view.emb y) = V c main_v35 y
  refine congrArg (V c main_v35) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- What point t writes back is block t of the layer of the whole arrays. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S2000x128) hz, View.ld_unit_zero (S := S2000x1) hz, View.ld_unit_zero (S := S128x256) hz,
    View.ld_unit_zero (S := S1x256) hz]
  rw [pay_eq, blk_wl, blk_wr, blk_bl]
  obtain ⟨e0, e1, e2, e3, e4, e5, -, -, -, -, -, -, e12, e13⟩ := idx_facts t
  funext j
  show sage (M := 2000) (K := 128) (N := 256) (iblk0 V c 0 t) (iblk0 V c 1 t) (iblk0 V c 2 t) (V c main_arg4) (V c main_arg6)
      (rowVec (V c main_v35)) j = G V c (((cfg0.win 6).blk t).view.emb j)
  refine sage_block (2000 * t.val) _ _ _ _ _ _ _ _ _ (fun p' p k hp => ?_) (fun p' p hp => ?_) (fun p' p k hp => ?_) j _ ?_ ?_
  · show V c main_v34 (((cfg0.win 0).blk t).view.emb (ix2 p' k)) = V c main_v34 (ix2 p k)
    refine congrArg (V c main_v34) (funext fun a => Fin.ext ?_)
    match a with
    | ⟨0, _⟩ => show win0_0.index t (0 : Fin 2) * 2000 + 1 * p'.val = p.val; omega
    | ⟨1, _⟩ => show win0_0.index t (1 : Fin 2) * 128 + 1 * k.val = k.val; omega
  · show V c main_v24 (((cfg0.win 1).blk t).view.emb (ix2 p' (0 : Fin 1))) = V c main_v24 (ix2 p (0 : Fin 1))
    refine congrArg (V c main_v24) (funext fun a => Fin.ext ?_)
    match a with
    | ⟨0, _⟩ => show win0_1.index t (0 : Fin 2) * 2000 + 1 * p'.val = p.val; omega
    | ⟨1, _⟩ => show win0_1.index t (1 : Fin 2) * 1 + 1 * 0 = 0; omega
  · show V c main_v15 (((cfg0.win 2).blk t).view.emb (ix2 p' k)) = V c main_v15 (ix2 p k)
    refine congrArg (V c main_v15) (funext fun a => Fin.ext ?_)
    match a with
    | ⟨0, _⟩ => show win0_2.index t (0 : Fin 2) * 2000 + 1 * p'.val = p.val; omega
    | ⟨1, _⟩ => show win0_2.index t (1 : Fin 2) * 128 + 1 * k.val = k.val; omega
  · show win0_6.index t (0 : Fin 2) * 2000 + 1 * (j 0).val = 2000 * t.val + (j 0).val; omega
  · show win0_6.index t (1 : Fin 2) * 256 + 1 * (j 1).val = (j 1).val; omega

/-- An index of the result array is in point t's block iff each coordinate is in the block's range on its axis. -/
theorem mem_blk (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v36).slice (win0_6.rect t)).set ↔ _
  rw [View.set_slice_whole, Rect.mem_set_unit]
  exact Iff.rfl

/-- Every index of the result array lies in the block of the point its row falls to. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : grid0.N = 50 := N_0
  have ht : (i 0).val / 2000 < cfg0.N := by show _ < grid0.N; omega
  obtain ⟨-, -, -, -, -, -, -, -, -, -, -, -, e12, e13⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e13]; omega

/-- The result array after the region: the layer of the whole arrays as the region found them. -/
theorem final (c : Dev nD) : (dat0 (F := Ideal) V c).arrAt 6 cfg0.N = G V c :=
  (dat0 (F := Ideal) V c).arrAt_eq_of_cover 6 (G V c) (fun t _ => flushed_eq V c t) (cover)

end Cert.KernelIdeal.Layer0

end
-- ==== Proof.LibHostLayer.lean ====
/-
  The host's spelling of one graph layer and of the decoder, joined to the whole-array functions.

  The host keeps a per-node count `D` and divides each row of the summed neighbour features by max(D, 1), spread along
  the features; the other arrangement multiplies by the column 1 / max(D, 1). At node `p` both read
  a · (max(D p, 1))⁻¹, for every extended real `a`, because max(D p, 1) ≥ 1 is not zero (`recip_hv`). With that, the
  host's layer — quotient, product with the first weight, bias, product of the own features with the second weight,
  and a positive part or none — is the layer `sage` / `pre` of the same arrays with that reciprocal column
  (`host_sage_eq`, `host_pre_eq`): the only rearrangement is the order in which three terms are added.

  The decoder's column of row-wise inner products, viewed as a vector, reads at `i` the inner product of row `i`
  (`decode_apply`).
-/
import proofs.«170958_j64312840290338_2_alg».proof.Proof.LibSageLaw

noncomputable section

open scoped BigOperators

namespace Cert.Net

open Idealize.ShloMosaic Idealize.ShloMosaic.ValueIdx Cert.Lib.BiasDot Cert.Lib.Dense Cert.Lib.RowLayers
open Cert.Lib.Sage Cert.Lib.SageSum

variable {M K N L : Nat}

/-- A scalar float word broadcast over any shape reads, at every index, the number the word denotes. -/
theorem hostConst_apply {t : Shape} (w : BitVec FTy.f32.bits) (dims : Fin 0 → Fin t.rank)
    (h : (⟨0, ![]⟩ : Shape).BroadcastsInDim t dims) (j : t.Idx) :
    broadcastInDim t dims h (constant (F := Ideal) ⟨0, ![]⟩ .f32 w) j = Ideal.ofBits .f32 w := by
  refine (broadcastInDim_apply (s := ⟨0, ![]⟩) dims h _ j (fun a => a.elim0) (fun a => a.elim0)).trans ?_
  rw [constant_apply]

/-- Dividing by max(D p, 1) is multiplying by the reciprocal column's entry at (p, 0). -/
theorem recip_hv (D : FVec Ideal ⟨1, ![M]⟩ .f32) (dims0 : Fin 0 → Fin 1)
    (hb : (⟨0, ![]⟩ : Shape).BroadcastsInDim ⟨1, ![M]⟩ dims0)
    (hm1 : (⟨1, ![M]⟩ : Shape).BroadcastsInDim ⟨2, ![M, 1]⟩ ![0]) (p : Fin M) (a : EReal) :
    Ideal.div a ((maximumf D (broadcastInDim ⟨1, ![M]⟩ dims0 hb (constant (F := Ideal) ⟨0, ![]⟩ .f32 0x3F800000#32))) (ix1 p)) = a * (broadcastInDim ⟨2, ![M, 1]⟩ ![0] hm1 (Host.divf (F := Ideal) (broadcastInDim ⟨1, ![M]⟩ dims0 hb (constant (F := Ideal) ⟨0, ![]⟩ .f32 0x3F800000#32)) (maximumf D (broadcastInDim ⟨1, ![M]⟩ dims0 hb (constant (F := Ideal) ⟨0, ![]⟩ .f32 0x3F800000#32))))) (ix2 p (0 : Fin 1)) := by
  rw [Cert.Lib.SageSum.hostCol_apply, hostDivf_apply, maximumf_apply, hostConst_apply]
  exact div_max_one _ a

/-- The host's layer without a positive part is `pre` at the reciprocal column. -/
theorem host_pre_eq (d : DotDims ⟨2, ![M, K]⟩ ⟨2, ![K, N]⟩ ⟨2, ![M, N]⟩) (hd : d = DotDims.plain M K N)
    (A : FVec Ideal ⟨2, ![M, K]⟩ .f32) (D : FVec Ideal ⟨1, ![M]⟩ .f32) (H : FVec Ideal ⟨2, ![M, K]⟩ .f32)
    (Wl : FVec Ideal ⟨2, ![K, N]⟩ .f32) (b : FVec Ideal ⟨1, ![N]⟩ .f32) (Wr : FVec Ideal ⟨2, ![K, N]⟩ .f32)
    (dims0 : Fin 0 → Fin 1) (hb : (⟨0, ![]⟩ : Shape).BroadcastsInDim ⟨1, ![M]⟩ dims0)
    (hm1 : (⟨1, ![M]⟩ : Shape).BroadcastsInDim ⟨2, ![M, 1]⟩ ![0])
    (hm2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (F := Ideal) d none
            (Host.divf (F := Ideal) A (broadcastInDim ⟨2, ![M, K]⟩ ![0, 1] hm2 (broadcastInDim ⟨2, ![M, 1]⟩ ![0] hm1 (maximumf D (broadcastInDim ⟨1, ![M]⟩ dims0 hb (constant (F := Ideal) ⟨0, ![]⟩ .f32 0x3F800000#32)))))) Wl)
          (broadcastInDim ⟨2, ![M, N]⟩ ![0, 1] h2 (broadcastInDim ⟨2, ![1, N]⟩ ![1] h1 b)))
      (Host.dotGeneral (F := Ideal) d none H Wr)
    = pre A (broadcastInDim ⟨2, ![M, 1]⟩ ![0] hm1 (Host.divf (F := Ideal) (broadcastInDim ⟨1, ![M]⟩ dims0 hb (constant (F := Ideal) ⟨0, ![]⟩ .f32 0x3F800000#32)) (maximumf D (broadcastInDim ⟨1, ![M]⟩ dims0 hb (constant (F := Ideal) ⟨0, ![]⟩ .f32 0x3F800000#32))))) H Wl Wr b := by
  rw [← sagePre_eq_pre]
  exact host_sagePre d hd A (maximumf D (broadcastInDim ⟨1, ![M]⟩ dims0 hb (constant (F := Ideal) ⟨0, ![]⟩ .f32 0x3F800000#32))) H Wl b Wr hm1 hm2 h1 h2 _ (fun p a => recip_hv D dims0 hb hm1 p a)

/-- The host's layer with its positive part is `sage` at the reciprocal column. -/
theorem host_sage_eq (d : DotDims ⟨2, ![M, K]⟩ ⟨2, ![K, N]⟩ ⟨2, ![M, N]⟩) (hd : d = DotDims.plain M K N)
    (A : FVec Ideal ⟨2, ![M, K]⟩ .f32) (D : FVec Ideal ⟨1, ![M]⟩ .f32) (H : FVec Ideal ⟨2, ![M, K]⟩ .f32)
    (Wl : FVec Ideal ⟨2, ![K, N]⟩ .f32) (b : FVec Ideal ⟨1, ![N]⟩ .f32) (Wr : FVec Ideal ⟨2, ![K, N]⟩ .f32)
    (dims0 : Fin 0 → Fin 1) (hb : (⟨0, ![]⟩ : Shape).BroadcastsInDim ⟨1, ![M]⟩ dims0)
    (hm1 : (⟨1, ![M]⟩ : Shape).BroadcastsInDim ⟨2, ![M, 1]⟩ ![0])
    (hm2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (addf (Host.dotGeneral (F := Ideal) d none
            (Host.divf (F := Ideal) A (broadcastInDim ⟨2, ![M, K]⟩ ![0, 1] hm2 (broadcastInDim ⟨2, ![M, 1]⟩ ![0] hm1 (maximumf D (broadcastInDim ⟨1, ![M]⟩ dims0 hb (constant (F := Ideal) ⟨0, ![]⟩ .f32 0x3F800000#32)))))) Wl)
          (broadcastInDim ⟨2, ![M, N]⟩ ![0, 1] h2 (broadcastInDim ⟨2, ![1, N]⟩ ![1] h1 b)))
      (Host.dotGeneral (F := Ideal) d none H Wr))
      (broadcastInDim ⟨2, ![M, N]⟩ dims h0 (constant (F := Ideal) ⟨0, ![]⟩ .f32 0x00000000#32))
    = sage A (broadcastInDim ⟨2, ![M, 1]⟩ ![0] hm1 (Host.divf (F := Ideal) (broadcastInDim ⟨1, ![M]⟩ dims0 hb (constant (F := Ideal) ⟨0, ![]⟩ .f32 0x3F800000#32)) (maximumf D (broadcastInDim ⟨1, ![M]⟩ dims0 hb (constant (F := Ideal) ⟨0, ![]⟩ .f32 0x3F800000#32))))) H Wl Wr b := by
  rw [host_relu, host_pre_eq d hd A D H Wl b Wr dims0 hb hm1 hm2 h1 h2, sage_eq_relu_pre]

/-- The decoder's column viewed as a vector of length L reads, at `i`, the inner product of row `i`. -/
theorem decode_apply (X Y : (⟨2, ![L, K]⟩ : Shape).Idx → EReal)
    (hc : (⟨2, ![L, 1]⟩ : Shape).ShapeCasts ⟨1, ![L]⟩) (i : (⟨1, ![L]⟩ : Shape).Idx) :
    shapeCast ⟨1, ![L]⟩ (rowDotCol X Y) hc i = ∑ k : Fin K, X (ix2 (i 0) k) * Y (ix2 (i 0) k) := by
  refine (shapeCast_apply (rowDotCol X Y) hc i (ix2 (i 0) (0 : Fin 1)) ?_).trans rfl
  rw [Shape.rowMajor_val_two, Shape.rowMajor_val_one]
  show (i 0).val * 1 + 0 = (i 0).val
  omega

end Cert.Net

end
-- ==== Proof.ChainA.lean ====
/-
  The idealized kernel's buffers at its segment boundaries, read as stages of the reference's computation — part A:
  after the first stretch of host operations and after region 0.

  The kernel's host operations are the reference's own (the embedding lookup, the edge endpoints, the in-degree count
  and its maximum with one, each layer's gather of source rows and scatter-add into destination rows); they are read
  as the very terms the reference's stages are. What differs is each layer: the kernel keeps the column
  1 / max(count, 1) and a region multiplies by it, where the reference divides by max(count, 1); and the three terms
  of a layer are added in another order. Each region's result is therefore the reference's layer of the same arrays.
-/
import proofs.«170958_j64312840290338_2_alg».proof.Proof.Gen.KernelIdeal.Frame
import proofs.«170958_j64312840290338_2_alg».proof.Proof.Gen.ReferenceIdeal.Read
import proofs.«170958_j64312840290338_2_alg».proof.Proof.Layer0
import proofs.«170958_j64312840290338_2_alg».proof.Proof.LibHostLayer

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem
open Idealize.ShloMosaic.StableHlo
open Cert.Lib.Sage Cert.Lib.RowLayers Cert.Net

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)

theorem W1_v1 : W1 m ρ c (Proc.devRef .tc main_v1) = (val_main_v9 (F := Ideal) X1) := by
  show StableHlo.after hostOps0 (W0 m ρ c) _ = _
  dsimp only [hostOps0]
  after_results_simp <;> rfl

theorem W1_v3 : W1 m ρ c (Proc.devRef .tc main_v3) = (val_main_v11 (F := Ideal) X1) := by
  show StableHlo.after hostOps0 (W0 m ρ c) _ = _
  dsimp only [hostOps0]
  after_results_simp <;> rfl

theorem W1_v5 : W1 m ρ c (Proc.devRef .tc main_v5) = (val_main_v95 (F := Ideal) X2) := by
  show StableHlo.after hostOps0 (W0 m ρ c) _ = _
  dsimp only [hostOps0]
  after_results_simp <;> rfl

theorem W1_v7 : W1 m ρ c (Proc.devRef .tc main_v7) = (val_main_v104 (F := Ideal) X2) := by
  show StableHlo.after hostOps0 (W0 m ρ c) _ = _
  dsimp only [hostOps0]
  after_results_simp <;> rfl

theorem W1_v15 : W1 m ρ c (Proc.devRef .tc main_v15) = (val_main_v7 (F := Ideal) X0 X3) := by
  show StableHlo.after hostOps0 (W0 m ρ c) _ = _
  dsimp only [hostOps0]
  after_results_simp <;> rfl

theorem W1_v24 : W1 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) := by
  show StableHlo.after hostOps0 (W0 m ρ c) _ = _
  dsimp only [hostOps0]
  after_results_simp <;> rfl

theorem W1_v34 : W1 m ρ c (Proc.devRef .tc main_v34) = (val_main_v28 (F := Ideal) X0 X1 X3) := by
  show StableHlo.after hostOps0 (W0 m ρ c) _ = _
  dsimp only [hostOps0]
  after_results_simp <;> rfl

theorem W1_v35 : W1 m ρ c (Proc.devRef .tc main_v35) = (shapeCast S1x256 X5 shapeCasts_S256_S1x256) := by
  show StableHlo.after hostOps0 (W0 m ρ c) _ = _
  dsimp only [hostOps0]
  after_results_simp <;> rfl

theorem W1_arg4 : W1 m ρ c (Proc.devRef .tc main_arg4) = X4 := by
  show StableHlo.after hostOps0 (W0 m ρ c) _ = _
  dsimp only [hostOps0]
  after_results_simp <;> rfl

theorem W1_arg6 : W1 m ρ c (Proc.devRef .tc main_arg6) = X6 := by
  show StableHlo.after hostOps0 (W0 m ρ c) _ = _
  dsimp only [hostOps0]
  after_results_simp <;> rfl

theorem W1_arg7 : W1 m ρ c (Proc.devRef .tc main_arg7) = X7 := by
  show StableHlo.after hostOps0 (W0 m ρ c) _ = _
  dsimp only [hostOps0]
  after_results_simp <;> rfl

theorem W1_arg8 : W1 m ρ c (Proc.devRef .tc main_arg8) = X8 := by
  show StableHlo.after hostOps0 (W0 m ρ c) _ = _
  dsimp only [hostOps0]
  after_results_simp <;> rfl

theorem W1_arg9 : W1 m ρ c (Proc.devRef .tc main_arg9) = X9 := by
  show StableHlo.after hostOps0 (W0 m ρ c) _ = _
  dsimp only [hostOps0]
  after_results_simp <;> rfl

theorem W1_arg10 : W1 m ρ c (Proc.devRef .tc main_arg10) = X10 := by
  show StableHlo.after hostOps0 (W0 m ρ c) _ = _
  dsimp only [hostOps0]
  after_results_simp <;> rfl

theorem W1_arg11 : W1 m ρ c (Proc.devRef .tc main_arg11) = X11 := by
  show StableHlo.after hostOps0 (W0 m ρ c) _ = _
  dsimp only [hostOps0]
  after_results_simp <;> rfl

theorem W1_arg12 : W1 m ρ c (Proc.devRef .tc main_arg12) = X12 := by
  show StableHlo.after hostOps0 (W0 m ρ c) _ = _
  dsimp only [hostOps0]
  after_results_simp <;> rfl

theorem W1_arg13 : W1 m ρ c (Proc.devRef .tc main_arg13) = X13 := by
  show StableHlo.after hostOps0 (W0 m ρ c) _ = _
  dsimp only [hostOps0]
  after_results_simp <;> rfl

theorem W1_arg14 : W1 m ρ c (Proc.devRef .tc main_arg14) = X14 := by
  show StableHlo.after hostOps0 (W0 m ρ c) _ = _
  dsimp only [hostOps0]
  after_results_simp <;> rfl

theorem W1_arg15 : W1 m ρ c (Proc.devRef .tc main_arg15) = X15 := by
  show StableHlo.after hostOps0 (W0 m ρ c) _ = _
  dsimp only [hostOps0]
  after_results_simp <;> rfl

/-- Region 0's layer of the arrays it finds is the reference's layer 0. -/
theorem layer0_eq : Layer0.G (V1 m ρ) c = (val_main_v37 (F := Ideal) X0 X1 X3 X4 X5 X6) := by
  unfold Layer0.G
  show sage (M := 100000) (K := 128) (N := 256) (W1 m ρ c (Proc.devRef .tc main_v34)) (W1 m ρ c (Proc.devRef .tc main_v24))
      (W1 m ρ c (Proc.devRef .tc main_v15)) (W1 m ρ c (Proc.devRef .tc main_arg4)) (W1 m ρ c (Proc.devRef .tc main_arg6))
      (rowVec (W1 m ρ c (Proc.devRef .tc main_v35))) = _
  rw [W1_v34 m ρ c, W1_v24 m ρ c, W1_v15 m ρ c, W1_arg4 m ρ c, W1_arg6 m ρ c, W1_v35 m ρ c, rowVec_reshape]
  exact (host_sage_eq Cert.ReferenceIdeal.dot_S100000x128_S128x256_S100000x256_1_0_0_1_n_n rfl (val_main_v28 (F := Ideal) X0 X1 X3) (val_main_v15 (F := Ideal) X1) (val_main_v7 (F := Ideal) X0 X3) X4 X5 X6 _ _ _ _ _ _ _ _).symm

theorem W2_v36 : W2 m ρ c (Proc.devRef .tc main_v36) = (val_main_v37 (F := Ideal) X0 X1 X3 X4 X5 X6) :=
  (W2_arr m ρ c 6).trans ((Layer0.final (V1 m ρ) c).trans (layer0_eq m ρ c))

theorem W2_v1 : W2 m ρ c (Proc.devRef .tc main_v1) = (val_main_v9 (F := Ideal) X1) :=
  (W2_of_ne m ρ c main_v1 (by decide)).trans (W1_v1 m ρ c)

theorem W2_v3 : W2 m ρ c (Proc.devRef .tc main_v3) = (val_main_v11 (F := Ideal) X1) :=
  (W2_of_ne m ρ c main_v3 (by decide)).trans (W1_v3 m ρ c)

theorem W2_v5 : W2 m ρ c (Proc.devRef .tc main_v5) = (val_main_v95 (F := Ideal) X2) :=
  (W2_of_ne m ρ c main_v5 (by decide)).trans (W1_v5 m ρ c)

theorem W2_v7 : W2 m ρ c (Proc.devRef .tc main_v7) = (val_main_v104 (F := Ideal) X2) :=
  (W2_of_ne m ρ c main_v7 (by decide)).trans (W1_v7 m ρ c)

theorem W2_v24 : W2 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) :=
  (W2_arr m ρ c 1).trans (((dat0 (V1 m ρ) c).arrAt_in 1 rfl _).trans ((A_eq0 (V1 m ρ) c 1).trans (W1_v24 m ρ c)))

theorem W2_arg7 : W2 m ρ c (Proc.devRef .tc main_arg7) = X7 :=
  (W2_of_ne m ρ c main_arg7 (by decide)).trans (W1_arg7 m ρ c)

theorem W2_arg8 : W2 m ρ c (Proc.devRef .tc main_arg8) = X8 :=
  (W2_of_ne m ρ c main_arg8 (by decide)).trans (W1_arg8 m ρ c)

theorem W2_arg9 : W2 m ρ c (Proc.devRef .tc main_arg9) = X9 :=
  (W2_of_ne m ρ c main_arg9 (by decide)).trans (W1_arg9 m ρ c)

theorem W2_arg10 : W2 m ρ c (Proc.devRef .tc main_arg10) = X10 :=
  (W2_of_ne m ρ c main_arg10 (by decide)).trans (W1_arg10 m ρ c)

theorem W2_arg11 : W2 m ρ c (Proc.devRef .tc main_arg11) = X11 :=
  (W2_of_ne m ρ c main_arg11 (by decide)).trans (W1_arg11 m ρ c)

theorem W2_arg12 : W2 m ρ c (Proc.devRef .tc main_arg12) = X12 :=
  (W2_of_ne m ρ c main_arg12 (by decide)).trans (W1_arg12 m ρ c)

theorem W2_arg13 : W2 m ρ c (Proc.devRef .tc main_arg13) = X13 :=
  (W2_of_ne m ρ c main_arg13 (by decide)).trans (W1_arg13 m ρ c)

theorem W2_arg14 : W2 m ρ c (Proc.devRef .tc main_arg14) = X14 :=
  (W2_of_ne m ρ c main_arg14 (by decide)).trans (W1_arg14 m ρ c)

theorem W2_arg15 : W2 m ρ c (Proc.devRef .tc main_arg15) = X15 :=
  (W2_of_ne m ρ c main_arg15 (by decide)).trans (W1_arg15 m ρ c)

end Cert.KernelIdeal.Chain

end
-- ==== Proof.Layer1.lean ====
/-
  Region 1 of the kernel: one graph layer with its positive part, 256 input features to 192 output features, computed
  2000 rows at a time over 50 grid points.

  At point t the body loads rows 2000·t … 2000·t + 1999 of the summed neighbour features, of the reciprocal-count
  column and of the nodes' own features, together with the whole of both weights and the bias row, and stores the
  layer of that block of rows. An entry of the layer depends on one row of the three row-indexed operands only, so
  the stored block is rows 2000·t … of the layer of the whole arrays; the 50 blocks tile the 100000 rows, so the
  result array ends holding the layer of the whole arrays as the region found them.
-/
import proofs.«170958_j64312840290338_2_alg».proof.Proof.Gen.KernelIdeal.Frame
import Idealize.ShloMosaic.Lib.Pipeline.Value
import proofs.«170958_j64312840290338_2_alg».proof.Proof.LibSageLaw

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.Sage Cert.Lib.RowLayers Cert.Lib.Dense Cert.Net

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x192.Idx → EReal :=
  sage (M := 100000) (K := 256) (N := 192) (V c main_v46) (V c main_v24) (V c main_v36) (V c main_arg7) (V c main_arg9)
    (rowVec (V c main_v47))

/-- The body's stored value is the layer of its loaded blocks. -/
theorem pay_eq (x0 : Vec Ideal S2000x256 .f32) (x1 : Vec Ideal S2000x1 .f32) (x2 : Vec Ideal S2000x256 .f32)
    (x3 : Vec Ideal S256x192 .f32) (x5 : Vec Ideal S256x192 .f32) (x4 : Vec Ideal S1x192 .f32) :
    k1_pay1 x0 x1 x2 x3 x5 x4 = sage (M := 2000) (K := 256) (N := 192) x0 x1 x2 x3 x5 (rowVec x4) := by
  unfold k1_pay1
  dsimp only
  rw [shapeCast_self x0, shapeCast_self x1, shapeCast_self x2]
  exact unit_sage dot_S2000x256_S256x192_S2000x192_1_0_0_1_n_n rfl x0 x1 x2 x3 x5 x4 _ _ _ _ _ _ _

/-- The printed index maps over the grid: the row-indexed windows and the result sit at block row t, the weights and
    the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first weight's block is the whole weight. -/
theorem blk_wl (c : Dev nD) (t : Fin cfg1.N) : iblk1 V c 3 t = V c main_arg7 := by
  obtain ⟨-, -, -, -, -, -, e6, e7, -⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 256 + 1 * (y 0).val = (y 0).val; omega
  | ⟨1, _⟩ => show win1_3.index t (1 : Fin 2) * 192 + 1 * (y 1).val = (y 1).val; omega

/-- The second weight's block is the whole weight. -/
theorem blk_wr (c : Dev nD) (t : Fin cfg1.N) : iblk1 V c 5 t = V c main_arg9 := by
  obtain ⟨-, -, -, -, -, -, -, -, -, -, e10, e11, -⟩ := idx_facts t
  funext y
  show V c main_arg9 (((cfg1.win 5).blk t).view.emb y) = V c main_arg9 y
  refine congrArg (V c main_arg9) (funext fun a => Fin.ext ?_)
  match a with
  | ⟨0, _⟩ => show win1_5.index t (0 : Fin 2) * 256 + 1 * (y 0).val = (y 0).val; omega
  | ⟨1, _⟩ => show win1_5.index t (1 : Fin 2) * 192 + 1 * (y 1).val = (y 1).val; omega

/-- The bias row's block is the whole row. -/
theorem blk_bl (c : Dev nD) (t : Fin cfg1.N) : iblk1 V c 4 t = V c main_v47 := by
  obtain ⟨-, -, -, -, -, -, -, -, e8, e9, -⟩ := idx_facts t
  funext y
  show V c main_v47 (((cfg1.win 4).blk t).view.emb y) = V c main_v47 y
  refine congrArg (V c main_v47) (funext fun a => Fin.ext ?_)
  match a with
  | ⟨0, _⟩ => show win1_4.index t (0 : Fin 2) * 1 + 1 * (y 0).val = (y 0).val; omega
  | ⟨1, _⟩ => show win1_4.index t (1 : Fin 2) * 192 + 1 * (y 1).val = (y 1).val; omega

/-- What point t writes back is block t of the layer of the whole arrays. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S2000x256) hz, View.ld_unit_zero (S := S2000x1) hz, View.ld_unit_zero (S := S256x192) hz,
    View.ld_unit_zero (S := S1x192) hz]
  rw [pay_eq, blk_wl, blk_wr, blk_bl]
  obtain ⟨e0, e1, e2, e3, e4, e5, -, -, -, -, -, -, e12, e13⟩ := idx_facts t
  funext j
  show sage (M := 2000) (K := 256) (N := 192) (iblk1 V c 0 t) (iblk1 V c 1 t) (iblk1 V c 2 t) (V c main_arg7) (V c main_arg9)
      (rowVec (V c main_v47)) j = G V c (((cfg1.win 6).blk t).view.emb j)
  refine sage_block (2000 * t.val) _ _ _ _ _ _ _ _ _ (fun p' p k hp => ?_) (fun p' p hp => ?_) (fun p' p k hp => ?_) j _ ?_ ?_
  · show V c main_v46 (((cfg1.win 0).blk t).view.emb (ix2 p' k)) = V c main_v46 (ix2 p k)
    refine congrArg (V c main_v46) (funext fun a => Fin.ext ?_)
    match a with
    | ⟨0, _⟩ => show win1_0.index t (0 : Fin 2) * 2000 + 1 * p'.val = p.val; omega
    | ⟨1, _⟩ => show win1_0.index t (1 : Fin 2) * 256 + 1 * k.val = k.val; omega
  · show V c main_v24 (((cfg1.win 1).blk t).view.emb (ix2 p' (0 : Fin 1))) = V c main_v24 (ix2 p (0 : Fin 1))
    refine congrArg (V c main_v24) (funext fun a => Fin.ext ?_)
    match a with
    | ⟨0, _⟩ => show win1_1.index t (0 : Fin 2) * 2000 + 1 * p'.val = p.val; omega
    | ⟨1, _⟩ => show win1_1.index t (1 : Fin 2) * 1 + 1 * 0 = 0; omega
  · show V c main_v36 (((cfg1.win 2).blk t).view.emb (ix2 p' k)) = V c main_v36 (ix2 p k)
    refine congrArg (V c main_v36) (funext fun a => Fin.ext ?_)
    match a with
    | ⟨0, _⟩ => show win1_2.index t (0 : Fin 2) * 2000 + 1 * p'.val = p.val; omega
    | ⟨1, _⟩ => show win1_2.index t (1 : Fin 2) * 256 + 1 * k.val = k.val; omega
  · show win1_6.index t (0 : Fin 2) * 2000 + 1 * (j 0).val = 2000 * t.val + (j 0).val; omega
  · show win1_6.index t (1 : Fin 2) * 192 + 1 * (j 1).val = (j 1).val; omega

/-- An index of the result array is in point t's block iff each coordinate is in the block's range on its axis. -/
theorem mem_blk (t : Fin cfg1.N) (i : S100000x192.Idx) :
    i ∈ ((cfg1.win 6).blk t).view.set ↔ ∀ a : Fin 2, win1_6.index t a * S2000x192.size a ≤ (i a).val ∧ (i a).val < win1_6.index t a * S2000x192.size a + S2000x192.size a := by
  show i ∈ ((View.whole main_v48).slice (win1_6.rect t)).set ↔ _
  rw [View.set_slice_whole, Rect.mem_set_unit]
  exact Iff.rfl

/-- Every index of the result array lies in the block of the point its row falls to. -/
theorem cover (i : S100000x192.Idx) :
    ∃ t : Fin cfg1.N, (cfg1.win 6).flush t = true ∧ i ∈ ((cfg1.win 6).blk t).view.set := by
  have hi0 : (i 0).val < 100000 := (i 0).isLt
  have hi1 : (i 1).val < 192 := (i 1).isLt
  have hN : grid1.N = 50 := N_1
  have ht : (i 0).val / 2000 < cfg1.N := by show _ < grid1.N; omega
  obtain ⟨-, -, -, -, -, -, -, -, -, -, -, -, e12, e13⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win1_6.index ⟨(i 0).val / 2000, ht⟩ (1 : Fin 2) * 192 ≤ (i 1).val ∧ (i 1).val < win1_6.index ⟨(i 0).val / 2000, ht⟩ (1 : Fin 2) * 192 + 192
    rw [e13]; omega

/-- The result array after the region: the layer of the whole arrays as the region found them. -/
theorem final (c : Dev nD) : (dat1 (F := Ideal) V c).arrAt 6 cfg1.N = G V c :=
  (dat1 (F := Ideal) V c).arrAt_eq_of_cover 6 (G V c) (fun t _ => flushed_eq V c t) (cover)

end Cert.KernelIdeal.Layer1

end
-- ==== Proof.ChainB.lean ====
/-
  The idealized kernel's buffers at its segment boundaries, read as stages of the reference's computation — part B:
  after the second stretch of host operations (layer 1's aggregation) and after region 1 (layer 1).
-/
import proofs.«170958_j64312840290338_2_alg».proof.Proof.Gen.KernelIdeal.Frame
import proofs.«170958_j64312840290338_2_alg».proof.Proof.Gen.ReferenceIdeal.Read
import proofs.«170958_j64312840290338_2_alg».proof.Proof.ChainA
import proofs.«170958_j64312840290338_2_alg».proof.Proof.Layer1

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem
open Idealize.ShloMosaic.StableHlo
open Cert.Lib.Sage Cert.Lib.RowLayers Cert.Net

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)

theorem W3_v46 : W3 m ρ c (Proc.devRef .tc main_v46) = (val_main_v47 (F := Ideal) X0 X1 X3 X4 X5 X6) := by
  show StableHlo.after hostOps1 (W2 m ρ c) _ = _
  dsimp only [hostOps1]
  after_results_simp
  rw [W2_v1 m ρ c, W2_v36 m ρ c, W2_v3 m ρ c]
  rfl

theorem W3_v47 : W3 m ρ c (Proc.devRef .tc main_v47) = (shapeCast S1x192 X8 shapeCasts_S192_S1x192) := by
  show StableHlo.after hostOps1 (W2 m ρ c) _ = _
  dsimp only [hostOps1]
  after_results_simp
  rw [W2_arg8 m ρ c]
  rfl

theorem W3_v36 : W3 m ρ c (Proc.devRef .tc main_v36) = (val_main_v37 (F := Ideal) X0 X1 X3 X4 X5 X6) := by
  show StableHlo.after hostOps1 (W2 m ρ c) _ = _
  dsimp only [hostOps1]
  after_results_simp
  exact W2_v36 m ρ c

theorem W3_v24 : W3 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) := by
  show StableHlo.after hostOps1 (W2 m ρ c) _ = _
  dsimp only [hostOps1]
  after_results_simp
  exact W2_v24 m ρ c

theorem W3_arg7 : W3 m ρ c (Proc.devRef .tc main_arg7) = X7 := by
  show StableHlo.after hostOps1 (W2 m ρ c) _ = _
  dsimp only [hostOps1]
  after_results_simp
  exact W2_arg7 m ρ c

theorem W3_arg9 : W3 m ρ c (Proc.devRef .tc main_arg9) = X9 := by
  show StableHlo.after hostOps1 (W2 m ρ c) _ = _
  dsimp only [hostOps1]
  after_results_simp
  exact W2_arg9 m ρ c

theorem W3_v1 : W3 m ρ c (Proc.devRef .tc main_v1) = (val_main_v9 (F := Ideal) X1) := by
  show StableHlo.after hostOps1 (W2 m ρ c) _ = _
  dsimp only [hostOps1]
  after_results_simp
  exact W2_v1 m ρ c

theorem W3_v3 : W3 m ρ c (Proc.devRef .tc main_v3) = (val_main_v11 (F := Ideal) X1) := by
  show StableHlo.after hostOps1 (W2 m ρ c) _ = _
  dsimp only [hostOps1]
  after_results_simp
  exact W2_v3 m ρ c

theorem W3_v5 : W3 m ρ c (Proc.devRef .tc main_v5) = (val_main_v95 (F := Ideal) X2) := by
  show StableHlo.after hostOps1 (W2 m ρ c) _ = _
  dsimp only [hostOps1]
  after_results_simp
  exact W2_v5 m ρ c

theorem W3_v7 : W3 m ρ c (Proc.devRef .tc main_v7) = (val_main_v104 (F := Ideal) X2) := by
  show StableHlo.after hostOps1 (W2 m ρ c) _ = _
  dsimp only [hostOps1]
  after_results_simp
  exact W2_v7 m ρ c

theorem W3_arg10 : W3 m ρ c (Proc.devRef .tc main_arg10) = X10 := by
  show StableHlo.after hostOps1 (W2 m ρ c) _ = _
  dsimp only [hostOps1]
  after_results_simp
  exact W2_arg10 m ρ c

theorem W3_arg11 : W3 m ρ c (Proc.devRef .tc main_arg11) = X11 := by
  show StableHlo.after hostOps1 (W2 m ρ c) _ = _
  dsimp only [hostOps1]
  after_results_simp
  exact W2_arg11 m ρ c

theorem W3_arg12 : W3 m ρ c (Proc.devRef .tc main_arg12) = X12 := by
  show StableHlo.after hostOps1 (W2 m ρ c) _ = _
  dsimp only [hostOps1]
  after_results_simp
  exact W2_arg12 m ρ c

theorem W3_arg13 : W3 m ρ c (Proc.devRef .tc main_arg13) = X13 := by
  show StableHlo.after hostOps1 (W2 m ρ c) _ = _
  dsimp only [hostOps1]
  after_results_simp
  exact W2_arg13 m ρ c

theorem W3_arg14 : W3 m ρ c (Proc.devRef .tc main_arg14) = X14 := by
  show StableHlo.after hostOps1 (W2 m ρ c) _ = _
  dsimp only [hostOps1]
  after_results_simp
  exact W2_arg14 m ρ c

theorem W3_arg15 : W3 m ρ c (Proc.devRef .tc main_arg15) = X15 := by
  show StableHlo.after hostOps1 (W2 m ρ c) _ = _
  dsimp only [hostOps1]
  after_results_simp
  exact W2_arg15 m ρ c

/-- Region 1's layer of the arrays it finds is the reference's layer 1. -/
theorem layer1_eq : Layer1.G (V3 m ρ) c = (val_main_v56 (F := Ideal) X0 X1 X3 X4 X5 X6 X7 X8 X9) := by
  unfold Layer1.G
  show sage (M := 100000) (K := 256) (N := 192) (W3 m ρ c (Proc.devRef .tc main_v46)) (W3 m ρ c (Proc.devRef .tc main_v24))
      (W3 m ρ c (Proc.devRef .tc main_v36)) (W3 m ρ c (Proc.devRef .tc main_arg7)) (W3 m ρ c (Proc.devRef .tc main_arg9))
      (rowVec (W3 m ρ c (Proc.devRef .tc main_v47))) = _
  rw [W3_v46 m ρ c, W3_v24 m ρ c, W3_v36 m ρ c, W3_arg7 m ρ c, W3_arg9 m ρ c, W3_v47 m ρ c, rowVec_reshape]
  exact (host_sage_eq Cert.ReferenceIdeal.dot_S100000x256_S256x192_S100000x192_1_0_0_1_n_n rfl (val_main_v47 (F := Ideal) X0 X1 X3 X4 X5 X6) (val_main_v15 (F := Ideal) X1) (val_main_v37 (F := Ideal) X0 X1 X3 X4 X5 X6) X7 X8 X9 _ _ _ _ _ _ _ _).symm

theorem W4_v48 : W4 m ρ c (Proc.devRef .tc main_v48) = (val_main_v56 (F := Ideal) X0 X1 X3 X4 X5 X6 X7 X8 X9) :=
  (W4_arr m ρ c 6).trans ((Layer1.final (V3 m ρ) c).trans (layer1_eq m ρ c))

theorem W4_v1 : W4 m ρ c (Proc.devRef .tc main_v1) = (val_main_v9 (F := Ideal) X1) :=
  (W4_of_ne m ρ c main_v1 (by decide)).trans (W3_v1 m ρ c)

theorem W4_v3 : W4 m ρ c (Proc.devRef .tc main_v3) = (val_main_v11 (F := Ideal) X1) :=
  (W4_of_ne m ρ c main_v3 (by decide)).trans (W3_v3 m ρ c)

theorem W4_v5 : W4 m ρ c (Proc.devRef .tc main_v5) = (val_main_v95 (F := Ideal) X2) :=
  (W4_of_ne m ρ c main_v5 (by decide)).trans (W3_v5 m ρ c)

theorem W4_v7 : W4 m ρ c (Proc.devRef .tc main_v7) = (val_main_v104 (F := Ideal) X2) :=
  (W4_of_ne m ρ c main_v7 (by decide)).trans (W3_v7 m ρ c)

theorem W4_v24 : W4 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) :=
  (W4_arr m ρ c 1).trans (((dat1 (V3 m ρ) c).arrAt_in 1 rfl _).trans ((A_eq1 (V3 m ρ) c 1).trans (W3_v24 m ρ c)))

theorem W4_arg10 : W4 m ρ c (Proc.devRef .tc main_arg10) = X10 :=
  (W4_of_ne m ρ c main_arg10 (by decide)).trans (W3_arg10 m ρ c)

theorem W4_arg11 : W4 m ρ c (Proc.devRef .tc main_arg11) = X11 :=
  (W4_of_ne m ρ c main_arg11 (by decide)).trans (W3_arg11 m ρ c)

theorem W4_arg12 : W4 m ρ c (Proc.devRef .tc main_arg12) = X12 :=
  (W4_of_ne m ρ c main_arg12 (by decide)).trans (W3_arg12 m ρ c)

theorem W4_arg13 : W4 m ρ c (Proc.devRef .tc main_arg13) = X13 :=
  (W4_of_ne m ρ c main_arg13 (by decide)).trans (W3_arg13 m ρ c)

theorem W4_arg14 : W4 m ρ c (Proc.devRef .tc main_arg14) = X14 :=
  (W4_of_ne m ρ c main_arg14 (by decide)).trans (W3_arg14 m ρ c)

theorem W4_arg15 : W4 m ρ c (Proc.devRef .tc main_arg15) = X15 :=
  (W4_of_ne m ρ c main_arg15 (by decide)).trans (W3_arg15 m ρ c)

end Cert.KernelIdeal.Chain

end
-- ==== Proof.Layer2.lean ====
/-
  Region 2 of the kernel: one graph layer with its positive part, 192 input features to 128 output features, computed
  2000 rows at a time over 50 grid points.

  At point t the body loads rows 2000·t … 2000·t + 1999 of the summed neighbour features, of the reciprocal-count
  column and of the nodes' own features, together with the whole of both weights and the bias row, and stores the
  layer of that block of rows. An entry of the layer depends on one row of the three row-indexed operands only, so
  the stored block is rows 2000·t … of the layer of the whole arrays; the 50 blocks tile the 100000 rows, so the
  result array ends holding the layer of the whole arrays as the region found them.
-/
import proofs.«170958_j64312840290338_2_alg».proof.Proof.Gen.KernelIdeal.Frame
import Idealize.ShloMosaic.Lib.Pipeline.Value
import proofs.«170958_j64312840290338_2_alg».proof.Proof.LibSageLaw

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.Sage Cert.Lib.RowLayers Cert.Lib.Dense Cert.Net

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x128.Idx → EReal :=
  sage (M := 100000) (K := 192) (N := 128) (V c main_v58) (V c main_v24) (V c main_v48) (V c main_arg10) (V c main_arg12)
    (rowVec (V c main_v59))

/-- The body's stored value is the layer of its loaded blocks. -/
theorem pay_eq (x0 : Vec Ideal S2000x192 .f32) (x1 : Vec Ideal S2000x1 .f32) (x2 : Vec Ideal S2000x192 .f32)
    (x3 : Vec Ideal S192x128 .f32) (x5 : Vec Ideal S192x128 .f32) (x4 : Vec Ideal S1x128 .f32) :
    k2_pay1 x0 x1 x2 x3 x5 x4 = sage (M := 2000) (K := 192) (N := 128) x0 x1 x2 x3 x5 (rowVec x4) := by
  unfold k2_pay1
  dsimp only
  rw [shapeCast_self x0, shapeCast_self x1, shapeCast_self x2]
  exact unit_sage dot_S2000x192_S192x128_S2000x128_1_0_0_1_n_n rfl x0 x1 x2 x3 x5 x4 _ _ _ _ _ _ _

/-- The printed index maps over the grid: the row-indexed windows and the result sit at block row t, the weights and
    the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The first weight's block is the whole weight. -/
theorem blk_wl (c : Dev nD) (t : Fin cfg2.N) : iblk2 V c 3 t = V c main_arg10 := by
  obtain ⟨-, -, -, -, -, -, e6, e7, -⟩ := idx_facts t
  funext y
  show V c main_arg10 (((cfg2.win 3).blk t).view.emb y) = V c main_arg10 y
  refine congrArg (V c main_arg10) (funext fun a => Fin.ext ?_)
  match a with
  | ⟨0, _⟩ => show win2_3.index t (0 : Fin 2) * 192 + 1 * (y 0).val = (y 0).val; omega
  | ⟨1, _⟩ => show win2_3.index t (1 : Fin 2) * 128 + 1 * (y 1).val = (y 1).val; omega

/-- The second weight's block is the whole weight. -/
theorem blk_wr (c : Dev nD) (t : Fin cfg2.N) : iblk2 V c 5 t = V c main_arg12 := by
  obtain ⟨-, -, -, -, -, -, -, -, -, -, e10, e11, -⟩ := idx_facts t
  funext y
  show V c main_arg12 (((cfg2.win 5).blk t).view.emb y) = V c main_arg12 y
  refine congrArg (V c main_arg12) (funext fun a => Fin.ext ?_)
  match a with
  | ⟨0, _⟩ => show win2_5.index t (0 : Fin 2) * 192 + 1 * (y 0).val = (y 0).val; omega
  | ⟨1, _⟩ => show win2_5.index t (1 : Fin 2) * 128 + 1 * (y 1).val = (y 1).val; omega

/-- The bias row's block is the whole row. -/
theorem blk_bl (c : Dev nD) (t : Fin cfg2.N) : iblk2 V c 4 t = V c main_v59 := by
  obtain ⟨-, -, -, -, -, -, -, -, e8, e9, -⟩ := idx_facts t
  funext y
  show V c main_v59 (((cfg2.win 4).blk t).view.emb y) = V c main_v59 y
  refine congrArg (V c main_v59) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the layer of the whole arrays. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S2000x192) hz, View.ld_unit_zero (S := S2000x1) hz, View.ld_unit_zero (S := S192x128) hz,
    View.ld_unit_zero (S := S1x128) hz]
  rw [pay_eq, blk_wl, blk_wr, blk_bl]
  obtain ⟨e0, e1, e2, e3, e4, e5, -, -, -, -, -, -, e12, e13⟩ := idx_facts t
  funext j
  show sage (M := 2000) (K := 192) (N := 128) (iblk2 V c 0 t) (iblk2 V c 1 t) (iblk2 V c 2 t) (V c main_arg10) (V c main_arg12)
      (rowVec (V c main_v59)) j = G V c (((cfg2.win 6).blk t).view.emb j)
  refine sage_block (2000 * t.val) _ _ _ _ _ _ _ _ _ (fun p' p k hp => ?_) (fun p' p hp => ?_) (fun p' p k hp => ?_) j _ ?_ ?_
  · show V c main_v58 (((cfg2.win 0).blk t).view.emb (ix2 p' k)) = V c main_v58 (ix2 p k)
    refine congrArg (V c main_v58) (funext fun a => Fin.ext ?_)
    match a with
    | ⟨0, _⟩ => show win2_0.index t (0 : Fin 2) * 2000 + 1 * p'.val = p.val; omega
    | ⟨1, _⟩ => show win2_0.index t (1 : Fin 2) * 192 + 1 * k.val = k.val; omega
  · show V c main_v24 (((cfg2.win 1).blk t).view.emb (ix2 p' (0 : Fin 1))) = V c main_v24 (ix2 p (0 : Fin 1))
    refine congrArg (V c main_v24) (funext fun a => Fin.ext ?_)
    match a with
    | ⟨0, _⟩ => show win2_1.index t (0 : Fin 2) * 2000 + 1 * p'.val = p.val; omega
    | ⟨1, _⟩ => show win2_1.index t (1 : Fin 2) * 1 + 1 * 0 = 0; omega
  · show V c main_v48 (((cfg2.win 2).blk t).view.emb (ix2 p' k)) = V c main_v48 (ix2 p k)
    refine congrArg (V c main_v48) (funext fun a => Fin.ext ?_)
    match a with
    | ⟨0, _⟩ => show win2_2.index t (0 : Fin 2) * 2000 + 1 * p'.val = p.val; omega
    | ⟨1, _⟩ => show win2_2.index t (1 : Fin 2) * 192 + 1 * k.val = k.val; omega
  · show win2_6.index t (0 : Fin 2) * 2000 + 1 * (j 0).val = 2000 * t.val + (j 0).val; omega
  · show win2_6.index t (1 : Fin 2) * 128 + 1 * (j 1).val = (j 1).val; omega

/-- An index of the result array is in point t's block iff each coordinate is in the block's range on its axis. -/
theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v60).slice (win2_6.rect t)).set ↔ _
  rw [View.set_slice_whole, Rect.mem_set_unit]
  exact Iff.rfl

/-- Every index of the result array lies in the block of the point its row falls to. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 50 := N_2
  have ht : (i 0).val / 2000 < cfg2.N := by show _ < grid2.N; omega
  obtain ⟨-, -, -, -, -, -, -, -, -, -, -, -, e12, e13⟩ := idx_facts ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e13]; omega

/-- The result array after the region: the layer of the whole arrays as the region found them. -/
theorem final (c : Dev nD) : (dat2 (F := Ideal) V c).arrAt 6 cfg2.N = G V c :=
  (dat2 (F := Ideal) V c).arrAt_eq_of_cover 6 (G V c) (fun t _ => flushed_eq V c t) (cover)

end Cert.KernelIdeal.Layer2

end
-- ==== Proof.ChainC.lean ====
/-
  The idealized kernel's buffers at its segment boundaries, read as stages of the reference's computation — part C:
  after the third stretch of host operations (layer 2's aggregation) and after region 2 (layer 2).
-/
import proofs.«170958_j64312840290338_2_alg».proof.Proof.Gen.KernelIdeal.Frame
import proofs.«170958_j64312840290338_2_alg».proof.Proof.Gen.ReferenceIdeal.Read
import proofs.«170958_j64312840290338_2_alg».proof.Proof.ChainB
import proofs.«170958_j64312840290338_2_alg».proof.Proof.Layer2

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem
open Idealize.ShloMosaic.StableHlo
open Cert.Lib.Sage Cert.Lib.RowLayers Cert.Net

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)

theorem W5_v58 : W5 m ρ c (Proc.devRef .tc main_v58) = (val_main_v66 (F := Ideal) X0 X1 X3 X4 X5 X6 X7 X8 X9) := by
  show StableHlo.after hostOps2 (W4 m ρ c) _ = _
  dsimp only [hostOps2]
  after_results_simp
  rw [W4_v1 m ρ c, W4_v48 m ρ c, W4_v3 m ρ c]
  rfl

theorem W5_v59 : W5 m ρ c (Proc.devRef .tc main_v59) = (shapeCast S1x128 X11 shapeCasts_S128_S1x128) := by
  show StableHlo.after hostOps2 (W4 m ρ c) _ = _
  dsimp only [hostOps2]
  after_results_simp
  rw [W4_arg11 m ρ c]
  rfl

theorem W5_v48 : W5 m ρ c (Proc.devRef .tc main_v48) = (val_main_v56 (F := Ideal) X0 X1 X3 X4 X5 X6 X7 X8 X9) := by
  show StableHlo.after hostOps2 (W4 m ρ c) _ = _
  dsimp only [hostOps2]
  after_results_simp
  exact W4_v48 m ρ c

theorem W5_v24 : W5 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) := by
  show StableHlo.after hostOps2 (W4 m ρ c) _ = _
  dsimp only [hostOps2]
  after_results_simp
  exact W4_v24 m ρ c

theorem W5_arg10 : W5 m ρ c (Proc.devRef .tc main_arg10) = X10 := by
  show StableHlo.after hostOps2 (W4 m ρ c) _ = _
  dsimp only [hostOps2]
  after_results_simp
  exact W4_arg10 m ρ c

theorem W5_arg12 : W5 m ρ c (Proc.devRef .tc main_arg12) = X12 := by
  show StableHlo.after hostOps2 (W4 m ρ c) _ = _
  dsimp only [hostOps2]
  after_results_simp
  exact W4_arg12 m ρ c

theorem W5_v1 : W5 m ρ c (Proc.devRef .tc main_v1) = (val_main_v9 (F := Ideal) X1) := by
  show StableHlo.after hostOps2 (W4 m ρ c) _ = _
  dsimp only [hostOps2]
  after_results_simp
  exact W4_v1 m ρ c

theorem W5_v3 : W5 m ρ c (Proc.devRef .tc main_v3) = (val_main_v11 (F := Ideal) X1) := by
  show StableHlo.after hostOps2 (W4 m ρ c) _ = _
  dsimp only [hostOps2]
  after_results_simp
  exact W4_v3 m ρ c

theorem W5_v5 : W5 m ρ c (Proc.devRef .tc main_v5) = (val_main_v95 (F := Ideal) X2) := by
  show StableHlo.after hostOps2 (W4 m ρ c) _ = _
  dsimp only [hostOps2]
  after_results_simp
  exact W4_v5 m ρ c

theorem W5_v7 : W5 m ρ c (Proc.devRef .tc main_v7) = (val_main_v104 (F := Ideal) X2) := by
  show StableHlo.after hostOps2 (W4 m ρ c) _ = _
  dsimp only [hostOps2]
  after_results_simp
  exact W4_v7 m ρ c

theorem W5_arg13 : W5 m ρ c (Proc.devRef .tc main_arg13) = X13 := by
  show StableHlo.after hostOps2 (W4 m ρ c) _ = _
  dsimp only [hostOps2]
  after_results_simp
  exact W4_arg13 m ρ c

theorem W5_arg14 : W5 m ρ c (Proc.devRef .tc main_arg14) = X14 := by
  show StableHlo.after hostOps2 (W4 m ρ c) _ = _
  dsimp only [hostOps2]
  after_results_simp
  exact W4_arg14 m ρ c

theorem W5_arg15 : W5 m ρ c (Proc.devRef .tc main_arg15) = X15 := by
  show StableHlo.after hostOps2 (W4 m ρ c) _ = _
  dsimp only [hostOps2]
  after_results_simp
  exact W4_arg15 m ρ c

/-- Region 2's layer of the arrays it finds is the reference's layer 2. -/
theorem layer2_eq : Layer2.G (V5 m ρ) c = (val_main_v75 (F := Ideal) X0 X1 X3 X4 X5 X6 X7 X8 X9 X10 X11 X12) := by
  unfold Layer2.G
  show sage (M := 100000) (K := 192) (N := 128) (W5 m ρ c (Proc.devRef .tc main_v58)) (W5 m ρ c (Proc.devRef .tc main_v24))
      (W5 m ρ c (Proc.devRef .tc main_v48)) (W5 m ρ c (Proc.devRef .tc main_arg10)) (W5 m ρ c (Proc.devRef .tc main_arg12))
      (rowVec (W5 m ρ c (Proc.devRef .tc main_v59))) = _
  rw [W5_v58 m ρ c, W5_v24 m ρ c, W5_v48 m ρ c, W5_arg10 m ρ c, W5_arg12 m ρ c, W5_v59 m ρ c, rowVec_reshape]
  exact (host_sage_eq Cert.ReferenceIdeal.dot_S100000x192_S192x128_S100000x128_1_0_0_1_n_n rfl (val_main_v66 (F := Ideal) X0 X1 X3 X4 X5 X6 X7 X8 X9) (val_main_v15 (F := Ideal) X1) (val_main_v56 (F := Ideal) X0 X1 X3 X4 X5 X6 X7 X8 X9) X10 X11 X12 _ _ _ _ _ _ _ _).symm

theorem W6_v60 : W6 m ρ c (Proc.devRef .tc main_v60) = (val_main_v75 (F := Ideal) X0 X1 X3 X4 X5 X6 X7 X8 X9 X10 X11 X12) :=
  (W6_arr m ρ c 6).trans ((Layer2.final (V5 m ρ) c).trans (layer2_eq m ρ c))

theorem W6_v1 : W6 m ρ c (Proc.devRef .tc main_v1) = (val_main_v9 (F := Ideal) X1) :=
  (W6_of_ne m ρ c main_v1 (by decide)).trans (W5_v1 m ρ c)

theorem W6_v3 : W6 m ρ c (Proc.devRef .tc main_v3) = (val_main_v11 (F := Ideal) X1) :=
  (W6_of_ne m ρ c main_v3 (by decide)).trans (W5_v3 m ρ c)

theorem W6_v5 : W6 m ρ c (Proc.devRef .tc main_v5) = (val_main_v95 (F := Ideal) X2) :=
  (W6_of_ne m ρ c main_v5 (by decide)).trans (W5_v5 m ρ c)

theorem W6_v7 : W6 m ρ c (Proc.devRef .tc main_v7) = (val_main_v104 (F := Ideal) X2) :=
  (W6_of_ne m ρ c main_v7 (by decide)).trans (W5_v7 m ρ c)

theorem W6_v24 : W6 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) :=
  (W6_arr m ρ c 1).trans (((dat2 (V5 m ρ) c).arrAt_in 1 rfl _).trans ((A_eq2 (V5 m ρ) c 1).trans (W5_v24 m ρ c)))

theorem W6_arg13 : W6 m ρ c (Proc.devRef .tc main_arg13) = X13 :=
  (W6_of_ne m ρ c main_arg13 (by decide)).trans (W5_arg13 m ρ c)

theorem W6_arg14 : W6 m ρ c (Proc.devRef .tc main_arg14) = X14 :=
  (W6_of_ne m ρ c main_arg14 (by decide)).trans (W5_arg14 m ρ c)

theorem W6_arg15 : W6 m ρ c (Proc.devRef .tc main_arg15) = X15 :=
  (W6_of_ne m ρ c main_arg15 (by decide)).trans (W5_arg15 m ρ c)

end Cert.KernelIdeal.Chain

end
-- ==== Proof.Layer3.lean ====
/-
  Region 3 of the kernel: one graph layer without a positive part, 128 input features to 128 output features, computed
  2000 rows at a time over 50 grid points.

  At point t the body loads rows 2000·t … 2000·t + 1999 of the summed neighbour features, of the reciprocal-count
  column and of the nodes' own features, together with the whole of both weights and the bias row, and stores the
  layer of that block of rows. An entry of the layer depends on one row of the three row-indexed operands only, so
  the stored block is rows 2000·t … of the layer of the whole arrays; the 50 blocks tile the 100000 rows, so the
  result array ends holding the layer of the whole arrays as the region found them.
-/
import proofs.«170958_j64312840290338_2_alg».proof.Proof.Gen.KernelIdeal.Frame
import Idealize.ShloMosaic.Lib.Pipeline.Value
import proofs.«170958_j64312840290338_2_alg».proof.Proof.LibSageLaw

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.Sage Cert.Lib.RowLayers Cert.Lib.Dense Cert.Net

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x128.Idx → EReal :=
  pre (M := 100000) (K := 128) (N := 128) (V c main_v70) (V c main_v24) (V c main_v60) (V c main_arg13) (V c main_arg15)
    (rowVec (V c main_v71))

/-- The body's stored value is the layer of its loaded blocks. -/
theorem pay_eq (x0 : Vec Ideal S2000x128 .f32) (x1 : Vec Ideal S2000x1 .f32) (x2 : Vec Ideal S2000x128 .f32)
    (x3 : Vec Ideal S128x128 .f32) (x5 : Vec Ideal S128x128 .f32) (x4 : Vec Ideal S1x128 .f32) :
    k3_pay1 x0 x1 x2 x3 x5 x4 = pre (M := 2000) (K := 128) (N := 128) x0 x1 x2 x3 x5 (rowVec x4) := by
  unfold k3_pay1
  dsimp only
  rw [shapeCast_self x0, shapeCast_self x1, shapeCast_self x2]
  exact unit_pre dot_S2000x128_S128x128_S2000x128_1_0_0_1_n_n rfl x0 x1 x2 x3 x5 x4 _ _ _ _ _ _ _

/-- The printed index maps over the grid: the row-indexed windows and the result sit at block row t, the weights and
    the bias row at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The first weight's block is the whole weight. -/
theorem blk_wl (c : Dev nD) (t : Fin cfg3.N) : iblk3 V c 3 t = V c main_arg13 := by
  obtain ⟨-, -, -, -, -, -, e6, e7, -⟩ := idx_facts t
  funext y
  show V c main_arg13 (((cfg3.win 3).blk t).view.emb y) = V c main_arg13 y
  refine congrArg (V c main_arg13) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The second weight's block is the whole weight. -/
theorem blk_wr (c : Dev nD) (t : Fin cfg3.N) : iblk3 V c 5 t = V c main_arg15 := by
  obtain ⟨-, -, -, -, -, -, -, -, -, -, e10, e11, -⟩ := idx_facts t
  funext y
  show V c main_arg15 (((cfg3.win 5).blk t).view.emb y) = V c main_arg15 y
  refine congrArg (V c main_arg15) (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- The bias row's block is the whole row. -/
theorem blk_bl (c : Dev nD) (t : Fin cfg3.N) : iblk3 V c 4 t = V c main_v71 := by
  obtain ⟨-, -, -, -, -, -, -, -, e8, e9, -⟩ := idx_facts t
  funext y
  show V c main_v71 (((cfg3.win 4).blk t).view.emb y) = V c main_v71 y
  refine congrArg (V c main_v71) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What point t writes back is block t of the layer of the whole arrays. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S2000x1) hz, View.ld_unit_zero (S := S128x128) hz,
    View.ld_unit_zero (S := S1x128) hz]
  rw [pay_eq, blk_wl, blk_wr, blk_bl]
  obtain ⟨e0, e1, e2, e3, e4, e5, -, -, -, -, -, -, e12, e13⟩ := idx_facts t
  funext j
  show pre (M := 2000) (K := 128) (N := 128) (iblk3 V c 0 t) (iblk3 V c 1 t) (iblk3 V c 2 t) (V c main_arg13) (V c main_arg15)
      (rowVec (V c main_v71)) j = G V c (((cfg3.win 6).blk t).view.emb j)
  refine pre_block (2000 * t.val) _ _ _ _ _ _ _ _ _ (fun p' p k hp => ?_) (fun p' p hp => ?_) (fun p' p k hp => ?_) j _ ?_ ?_
  · show V c main_v70 (((cfg3.win 0).blk t).view.emb (ix2 p' k)) = V c main_v70 (ix2 p k)
    refine congrArg (V c main_v70) (funext fun a => Fin.ext ?_)
    match a with
    | ⟨0, _⟩ => show win3_0.index t (0 : Fin 2) * 2000 + 1 * p'.val = p.val; omega
    | ⟨1, _⟩ => show win3_0.index t (1 : Fin 2) * 128 + 1 * k.val = k.val; omega
  · show V c main_v24 (((cfg3.win 1).blk t).view.emb (ix2 p' (0 : Fin 1))) = V c main_v24 (ix2 p (0 : Fin 1))
    refine congrArg (V c main_v24) (funext fun a => Fin.ext ?_)
    match a with
    | ⟨0, _⟩ => show win3_1.index t (0 : Fin 2) * 2000 + 1 * p'.val = p.val; omega
    | ⟨1, _⟩ => show win3_1.index t (1 : Fin 2) * 1 + 1 * 0 = 0; omega
  · show V c main_v60 (((cfg3.win 2).blk t).view.emb (ix2 p' k)) = V c main_v60 (ix2 p k)
    refine congrArg (V c main_v60) (funext fun a => Fin.ext ?_)
    match a with
    | ⟨0, _⟩ => show win3_2.index t (0 : Fin 2) * 2000 + 1 * p'.val = p.val; omega
    | ⟨1, _⟩ => show win3_2.index t (1 : Fin 2) * 128 + 1 * k.val = k.val; omega
  · show win3_6.index t (0 : Fin 2) * 2000 + 1 * (j 0).val = 2000 * t.val + (j 0).val; omega
  · show win3_6.index t (1 : Fin 2) * 128 + 1 * (j 1).val = (j 1).val; omega

/-- An index of the result array is in point t's block iff each coordinate is in the block's range on its axis. -/
theorem mem_blk (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v72).slice (win3_6.rect t)).set ↔ _
  rw [View.set_slice_whole, Rect.mem_set_unit]
  exact Iff.rfl

/-- Every index of the result array lies in the block of the point its row falls to. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 50 := N_3
  have ht : (i 0).val / 2000 < cfg3.N := by show _ < grid3.N; omega
  obtain ⟨-, -, -, -, -, -, -, -, -, -, -, -, e12, e13⟩ := idx_facts ⟨(i 0).val / 2000, ht⟩
  refine ⟨⟨(i 0).val / 2000, ht⟩, flush3_6 _, ?_⟩
  rw [mem_blk]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    rw [e13]; omega

/-- The result array after the region: the layer of the whole arrays as the region found them. -/
theorem final (c : Dev nD) : (dat3 (F := Ideal) V c).arrAt 6 cfg3.N = G V c :=
  (dat3 (F := Ideal) V c).arrAt_eq_of_cover 6 (G V c) (fun t _ => flushed_eq V c t) (cover)

end Cert.KernelIdeal.Layer3

end
-- ==== Proof.ChainD.lean ====
/-
  The idealized kernel's buffers at its segment boundaries, read as stages of the reference's computation — part D:
  after the fourth stretch of host operations (layer 3's aggregation) and after region 3 (layer 3, which has no
  positive part).
-/
import proofs.«170958_j64312840290338_2_alg».proof.Proof.Gen.KernelIdeal.Frame
import proofs.«170958_j64312840290338_2_alg».proof.Proof.Gen.ReferenceIdeal.Read
import proofs.«170958_j64312840290338_2_alg».proof.Proof.ChainC
import proofs.«170958_j64312840290338_2_alg».proof.Proof.Layer3

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem
open Idealize.ShloMosaic.StableHlo
open Cert.Lib.Sage Cert.Lib.RowLayers Cert.Net

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)

theorem W7_v70 : W7 m ρ c (Proc.devRef .tc main_v70) = (val_main_v85 (F := Ideal) X0 X1 X3 X4 X5 X6 X7 X8 X9 X10 X11 X12) := by
  show StableHlo.after hostOps3 (W6 m ρ c) _ = _
  dsimp only [hostOps3]
  after_results_simp
  rw [W6_v1 m ρ c, W6_v60 m ρ c, W6_v3 m ρ c]
  rfl

theorem W7_v71 : W7 m ρ c (Proc.devRef .tc main_v71) = (shapeCast S1x128 X14 shapeCasts_S128_S1x128) := by
  show StableHlo.after hostOps3 (W6 m ρ c) _ = _
  dsimp only [hostOps3]
  after_results_simp
  rw [W6_arg14 m ρ c]
  rfl

theorem W7_v60 : W7 m ρ c (Proc.devRef .tc main_v60) = (val_main_v75 (F := Ideal) X0 X1 X3 X4 X5 X6 X7 X8 X9 X10 X11 X12) := by
  show StableHlo.after hostOps3 (W6 m ρ c) _ = _
  dsimp only [hostOps3]
  after_results_simp
  exact W6_v60 m ρ c

theorem W7_v24 : W7 m ρ c (Proc.devRef .tc main_v24) = (broadcastInDim S100000x1 ![0] bcast_S100000_S100000x1_0 (Host.divf (F := Ideal) (broadcastInDim S100000 ![] bcast_S_S100000 (constant (F := Ideal) S_ .f32 0x3F800000#32)) (maximumf (val_main_v15 (F := Ideal) X1) (broadcastInDim S100000 ![] bcast_S_S100000 (constant (F := Ideal) S_ .f32 0x3F800000#32))))) := by
  show StableHlo.after hostOps3 (W6 m ρ c) _ = _
  dsimp only [hostOps3]
  after_results_simp
  exact W6_v24 m ρ c

theorem W7_arg13 : W7 m ρ c (Proc.devRef .tc main_arg13) = X13 := by
  show StableHlo.after hostOps3 (W6 m ρ c) _ = _
  dsimp only [hostOps3]
  after_results_simp
  exact W6_arg13 m ρ c

theorem W7_arg15 : W7 m ρ c (Proc.devRef .tc main_arg15) = X15 := by
  show StableHlo.after hostOps3 (W6 m ρ c) _ = _
  dsimp only [hostOps3]
  after_results_simp
  exact W6_arg15 m ρ c

theorem W7_v5 : W7 m ρ c (Proc.devRef .tc main_v5) = (val_main_v95 (F := Ideal) X2) := by
  show StableHlo.after hostOps3 (W6 m ρ c) _ = _
  dsimp only [hostOps3]
  after_results_simp
  exact W6_v5 m ρ c

theorem W7_v7 : W7 m ρ c (Proc.devRef .tc main_v7) = (val_main_v104 (F := Ideal) X2) := by
  show StableHlo.after hostOps3 (W6 m ρ c) _ = _
  dsimp only [hostOps3]
  after_results_simp
  exact W6_v7 m ρ c

/-- Region 3's layer of the arrays it finds is the reference's layer 3. -/
theorem layer3_eq : Layer3.G (V7 m ρ) c = (val_main_v93 (F := Ideal) X0 X1 X3 X4 X5 X6 X7 X8 X9 X10 X11 X12 X13 X14 X15) := by
  unfold Layer3.G
  show pre (M := 100000) (K := 128) (N := 128) (W7 m ρ c (Proc.devRef .tc main_v70)) (W7 m ρ c (Proc.devRef .tc main_v24))
      (W7 m ρ c (Proc.devRef .tc main_v60)) (W7 m ρ c (Proc.devRef .tc main_arg13)) (W7 m ρ c (Proc.devRef .tc main_arg15))
      (rowVec (W7 m ρ c (Proc.devRef .tc main_v71))) = _
  rw [W7_v70 m ρ c, W7_v24 m ρ c, W7_v60 m ρ c, W7_arg13 m ρ c, W7_arg15 m ρ c, W7_v71 m ρ c, rowVec_reshape]
  exact (host_pre_eq Cert.ReferenceIdeal.dot_S100000x128_S128x128_S100000x128_1_0_0_1_n_n rfl (val_main_v85 (F := Ideal) X0 X1 X3 X4 X5 X6 X7 X8 X9 X10 X11 X12) (val_main_v15 (F := Ideal) X1) (val_main_v75 (F := Ideal) X0 X1 X3 X4 X5 X6 X7 X8 X9 X10 X11 X12) X13 X14 X15 _ _ _ _ _ _).symm

theorem W8_v72 : W8 m ρ c (Proc.devRef .tc main_v72) = (val_main_v93 (F := Ideal) X0 X1 X3 X4 X5 X6 X7 X8 X9 X10 X11 X12 X13 X14 X15) :=
  (W8_arr m ρ c 6).trans ((Layer3.final (V7 m ρ) c).trans (layer3_eq m ρ c))

theorem W8_v5 : W8 m ρ c (Proc.devRef .tc main_v5) = (val_main_v95 (F := Ideal) X2) :=
  (W8_of_ne m ρ c main_v5 (by decide)).trans (W7_v5 m ρ c)

theorem W8_v7 : W8 m ρ c (Proc.devRef .tc main_v7) = (val_main_v104 (F := Ideal) X2) :=
  (W8_of_ne m ρ c main_v7 (by decide)).trans (W7_v7 m ρ c)

end Cert.KernelIdeal.Chain

end
-- ==== Proof.Decode.lean ====
/-
  Region 4 of the kernel: the dot-product decoder, 4000 label edges at a time over 50 grid points.

  At point t the body loads rows 4000·t … 4000·t + 3999 of the two gathered endpoint-feature arrays, multiplies them
  entry by entry, sums each row along its 128 lanes and stores the sums as a 4000 × 1 column. An entry of the column
  depends on one row of each operand only, so the stored block is rows 4000·t … of the column of row-wise inner products
  of the whole arrays; the 50 blocks tile the 200000 rows.
-/
import proofs.«170958_j64312840290338_2_alg».proof.Proof.Gen.KernelIdeal.Frame
import Idealize.ShloMosaic.Lib.Pipeline.Value
import proofs.«170958_j64312840290338_2_alg».proof.Proof.LibSageLaw

set_option maxRecDepth 16384

noncomputable section

namespace Cert.KernelIdeal.Decode

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

variable (V : (c : Dev nD) → (b : Ref sig .tc) → Buf (Elt Ideal) ((c : Thread nD τ).loc b))

theorem hz : (![0, 0] : Fin 2 → Nat) = fun _ => 0 := funext fun a => by fin_cases a <;> rfl

/-- The column of row-wise inner products of the two gathered arrays as the region finds them. -/
def G (c : Dev nD) : S200000x1.Idx → EReal :=
  rowDotCol (L := 200000) (K := 128) (V c main_v79) (V c main_v86)

/-- The body's stored value: the product of its two loaded blocks summed along the lanes, as a column. -/
theorem pay_eq (x0 x1 : Vec Ideal S4000x128 .f32) :
    k4_pay1 x0 x1 = shapeCast S4000x1 (multiReduction .add [1] S4000 (mulf x0 x1) 0x00000000#32 reduces_S4000x128_S4000 (.inl rfl) rfl)
      shapeCasts_S4000_S4000x1 := by
  unfold k4_pay1
  dsimp only
  rw [shapeCast_self x0, shapeCast_self x1]

/-- The printed index maps over the grid: all three windows sit at block row t. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the column of inner products of the whole arrays. -/
theorem flushed_eq (c : Dev nD) (t : Fin cfg4.N) :
    (dat4 (F := Ideal) V c).flushed 2 t = ((cfg4.win 2).blk t).view.read (Elt Ideal) (G V c) := by
  show (cfg4.win 2).cut (grid4.coords t) ((dat4 (F := Ideal) V c).after 2 t) = _
  rw [after4_2]
  unfold out4_2
  rw [View.canon_unit_zero hz]
  simp only [View.ld_unit_zero (S := S4000x128) hz]
  rw [pay_eq]
  obtain ⟨e0, e1, e2, e3, e4, e5⟩ := idx_facts t
  funext j
  show shapeCast S4000x1 (multiReduction (F := Ideal) .add [1] S4000 (mulf (iblk4 (F := Ideal) V c 0 t) (iblk4 (F := Ideal) V c 1 t)) 0x00000000#32 reduces_S4000x128_S4000 (.inl rfl) rfl)
      shapeCasts_S4000_S4000x1 j = G V c (((cfg4.win 2).blk t).view.emb j)
  refine rowDot_block (l := 4000) (L := 200000) (K := 128) (4000 * t.val) _ _ _ _ _ _ _ _ _ (fun p' p k hp => ?_) (fun p' p k hp => ?_) j _ ?_
  · show V c main_v79 (((cfg4.win 0).blk t).view.emb (ix2 p' k)) = V c main_v79 (ix2 p k)
    refine congrArg (V c main_v79) (funext fun a => Fin.ext ?_)
    match a with
    | ⟨0, _⟩ => show win4_0.index t (0 : Fin 2) * 4000 + 1 * p'.val = p.val; omega
    | ⟨1, _⟩ => show win4_0.index t (1 : Fin 2) * 128 + 1 * k.val = k.val; omega
  · show V c main_v86 (((cfg4.win 1).blk t).view.emb (ix2 p' k)) = V c main_v86 (ix2 p k)
    refine congrArg (V c main_v86) (funext fun a => Fin.ext ?_)
    match a with
    | ⟨0, _⟩ => show win4_1.index t (0 : Fin 2) * 4000 + 1 * p'.val = p.val; omega
    | ⟨1, _⟩ => show win4_1.index t (1 : Fin 2) * 128 + 1 * k.val = k.val; omega
  · show win4_2.index t (0 : Fin 2) * 4000 + 1 * (j 0).val = 4000 * t.val + (j 0).val; omega

/-- An index of the result array is in point t's block iff each coordinate is in the block's range on its axis. -/
theorem mem_blk (t : Fin cfg4.N) (i : S200000x1.Idx) :
    i ∈ ((cfg4.win 2).blk t).view.set ↔ ∀ a : Fin 2, win4_2.index t a * S4000x1.size a ≤ (i a).val ∧ (i a).val < win4_2.index t a * S4000x1.size a + S4000x1.size a := by
  show i ∈ ((View.whole main_v87).slice (win4_2.rect t)).set ↔ _
  rw [View.set_slice_whole, Rect.mem_set_unit]
  exact Iff.rfl

/-- Every index of the result array lies in the block of the point its row falls to. -/
theorem cover (i : S200000x1.Idx) :
    ∃ t : Fin cfg4.N, (cfg4.win 2).flush t = true ∧ i ∈ ((cfg4.win 2).blk t).view.set := by
  have hi0 : (i 0).val < 200000 := (i 0).isLt
  have hi1 : (i 1).val < 1 := (i 1).isLt
  have hN : grid4.N = 50 := N_4
  have ht : (i 0).val / 4000 < cfg4.N := by show _ < grid4.N; omega
  obtain ⟨-, -, -, -, e4, e5⟩ := idx_facts ⟨(i 0).val / 4000, ht⟩
  refine ⟨⟨(i 0).val / 4000, ht⟩, flush4_2 _, ?_⟩
  rw [mem_blk]
  intro a
  match a with
  | ⟨0, _⟩ =>
    show win4_2.index ⟨(i 0).val / 4000, ht⟩ (0 : Fin 2) * 4000 ≤ (i 0).val ∧ (i 0).val < win4_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win4_2.index ⟨(i 0).val / 4000, ht⟩ (1 : Fin 2) * 1 ≤ (i 1).val ∧ (i 1).val < win4_2.index ⟨(i 0).val / 4000, ht⟩ (1 : Fin 2) * 1 + 1
    rw [e5]; omega

/-- The result array after the region: the column of row-wise inner products of the whole arrays. -/
theorem final (c : Dev nD) : (dat4 (F := Ideal) V c).arrAt 2 cfg4.N = G V c :=
  (dat4 (F := Ideal) V c).arrAt_eq_of_cover 2 (G V c) (fun t _ => flushed_eq V c t) (cover)

end Cert.KernelIdeal.Decode

end
-- ==== Proof.LibDecodeHost.lean ====
/-
  The decoder against the host's sum: the column of row-wise inner products of two L × K arrays, viewed as a vector of
  length L, is the host's sum over the second axis, from a zero word, of the entrywise product. At row p both are the
  K products X (p, k) · Y (p, k) added up; the host adds them to the initial value zero.
-/
import Idealize.ShloMosaic.Lib.IdealHost
import proofs.«170958_j64312840290338_2_alg».proof.Proof.LibHostLayer

noncomputable section

open scoped BigOperators

namespace Cert.Net

open Idealize.ShloMosaic Idealize.ShloMosaic.ValueIdx

variable {K L : Nat}

/-- The decoder's column read back as a vector is the host's reduce-add of the product of entries. -/
theorem decode_host (X Y : FVec Ideal ⟨2, ![L, K]⟩ .f32) (hc : (⟨2, ![L, 1]⟩ : Shape).ShapeCasts ⟨1, ![L]⟩)
    (hr : (⟨2, ![L, K]⟩ : Shape).ReducesTo [1] ⟨1, ![L]⟩) (h : (⟨2, ![L, K]⟩ : Shape).Reduces [1] ⟨1, ![L]⟩)
    (hu : 0 < (⟨0, ![]⟩ : Shape).numel) :
    shapeCast ⟨1, ![L]⟩ (rowDotCol X Y) hc
      = Host.reduceAdd (F := Ideal) (mulf X Y) (constant (F := Ideal) ⟨0, ![]⟩ .f32 0x00000000#32) hr hu := by
  funext i
  obtain ⟨p, rfl⟩ : ∃ p : Fin L, i = ix1 p := ⟨i 0, eq_ix1 i⟩
  rw [decode_apply, hostReduceAdd_apply, Ideal.hostReduceAdd_single hr h, constant_apply, Ideal.ofBits_zero_f32, zero_add]
  exact Finset.sum_congr rfl fun k _ => (congrArg (mulf X Y) (lift_lane h p k)).symm

end Cert.Net

end
-- ==== Proof.ChainE.lean ====
/-
  The idealized kernel's buffers at its segment boundaries, read as stages of the reference's computation — part E:
  the two gathers of label-edge endpoints, the decoder region and the final reshape. The decoder's column of row-wise
  inner products, read back as a vector, is the reference's sum over the feature axis of the product of the two
  gathered arrays: the same 128 products summed from zero.
-/
import proofs.«170958_j64312840290338_2_alg».proof.Proof.Gen.KernelIdeal.Frame
import proofs.«170958_j64312840290338_2_alg».proof.Proof.Gen.ReferenceIdeal.Read
import proofs.«170958_j64312840290338_2_alg».proof.Proof.ChainD
import proofs.«170958_j64312840290338_2_alg».proof.Proof.Decode
import proofs.«170958_j64312840290338_2_alg».proof.Proof.LibDecodeHost

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem
open Idealize.ShloMosaic.StableHlo
open Cert.Lib.Sage Cert.Lib.RowLayers Cert.Net

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)

theorem W9_v79 : W9 m ρ c (Proc.devRef .tc main_v79) = (val_main_v102 (F := Ideal) X0 X1 X2 X3 X4 X5 X6 X7 X8 X9 X10 X11 X12 X13 X14 X15) := by
  show StableHlo.after hostOps4 (W8 m ρ c) _ = _
  dsimp only [hostOps4]
  after_results_simp
  rw [W8_v5 m ρ c, W8_v72 m ρ c]
  rfl

theorem W9_v86 : W9 m ρ c (Proc.devRef .tc main_v86) = (val_main_v111 (F := Ideal) X0 X1 X2 X3 X4 X5 X6 X7 X8 X9 X10 X11 X12 X13 X14 X15) := by
  show StableHlo.after hostOps4 (W8 m ρ c) _ = _
  dsimp only [hostOps4]
  after_results_simp
  rw [W8_v7 m ρ c, W8_v72 m ρ c]
  rfl

theorem W10_v87 : W10 m ρ c (Proc.devRef .tc main_v87)
    = rowDotCol (L := 200000) (K := 128) (val_main_v102 (F := Ideal) X0 X1 X2 X3 X4 X5 X6 X7 X8 X9 X10 X11 X12 X13 X14 X15) (val_main_v111 (F := Ideal) X0 X1 X2 X3 X4 X5 X6 X7 X8 X9 X10 X11 X12 X13 X14 X15) := by
  refine (W10_arr m ρ c 2).trans ((Decode.final (V9 m ρ) c).trans ?_)
  unfold Decode.G
  show rowDotCol (L := 200000) (K := 128) (W9 m ρ c (Proc.devRef .tc main_v79)) (W9 m ρ c (Proc.devRef .tc main_v86)) = _
  rw [W9_v79 m ρ c, W9_v86 m ρ c]

/-- The kernel's result is the reference's result of the same arguments. -/
theorem W11_v88 : W11 m ρ c (Proc.devRef .tc main_v88) = val_main_v113 (F := Ideal) X0 X1 X2 X3 X4 X5 X6 X7 X8 X9 X10 X11 X12 X13 X14 X15 := by
  show StableHlo.after hostOps5 (W10 m ρ c) _ = _
  dsimp only [hostOps5]
  after_results_simp
  rw [W10_v87 m ρ c]
  unfold val_main_v113 val_main_v112 val_main_cst_19
  exact decode_host (L := 200000) (K := 128) (val_main_v102 (F := Ideal) X0 X1 X2 X3 X4 X5 X6 X7 X8 X9 X10 X11 X12 X13 X14 X15) (val_main_v111 (F := Ideal) X0 X1 X2 X3 X4 X5 X6 X7 X8 X9 X10 X11 X12 X13 X14 X15) _ _ (by decide) _

end Cert.KernelIdeal.Chain

end
-- ==== Proof.lean ====
/-
  A four-layer mean-aggregation graph network with a dot-product decoder: an embedding lookup, four layers
  z ← [relu] ((Σ_{edges into n} z[src]) / max(deg n, 1)) · Wl + b + z · Wr (the last without the positive part), and for
  each label edge the inner product of its endpoints' final features.

  The kernel and the reference perform the same host operations (the lookup, the degree count, each layer's gather of
  source rows and scatter-add into destination rows, the decoder's two gathers). They differ in three ways, none of
  which changes a value on the extended reals:
  * the kernel keeps the column 1 / max(deg, 1) and multiplies each aggregated row by it, the reference divides by
    max(deg, 1); since max(deg, 1) ≥ 1 is never zero, a / max(deg, 1) = a · (1 / max(deg, 1)) for every extended real a;
  * the kernel adds a layer's three terms as (S₁ + S₂) + b, the reference as (S₁ + b) + S₂ — addition of extended reals
    is commutative and associative;
  * the kernel computes each layer 2000 rows at a time and the decoder 4000 rows at a time, an entry depending on one
    row of the row-indexed operands only; and it sums a row's 128 products along the lanes and keeps them as a column,
    where the reference reduces over the feature axis from zero.
  No finiteness of the inputs is used.

  The kernel's run is five kernel regions among six stretches of host operations; its result is read back boundary by
  boundary as the reference's stages of the same arguments (modules ChainA–ChainE over Layer0–Layer3 and Decode), and
  the reference's run is its generated one.
-/
import proofs.«170958_j64312840290338_2_alg».proof.Defs
import proofs.«170958_j64312840290338_2_alg».proof.Proof.Gen.Kernel
import proofs.«170958_j64312840290338_2_alg».proof.Proof.Gen.Kernel.Frame
import proofs.«170958_j64312840290338_2_alg».proof.Proof.Gen.KernelIdeal
import proofs.«170958_j64312840290338_2_alg».proof.Proof.Gen.KernelIdeal.Frame
import proofs.«170958_j64312840290338_2_alg».proof.Proof.Gen.ReferenceIdeal
import proofs.«170958_j64312840290338_2_alg».proof.Proof.Gen.ReferenceIdeal.Run
import proofs.«170958_j64312840290338_2_alg».proof.Proof.Gen.ReferenceIdeal.Read
import proofs.«170958_j64312840290338_2_alg».proof.Proof.Gen.Pre_finite_inputs
import proofs.«170958_j64312840290338_2_alg».proof.Proof.ValueRun
import proofs.«170958_j64312840290338_2_alg».proof.Proof.ChainE
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the reference's last stage of the
    kernel's arguments as their result. -/
theorem algebraic : Cert.algebraic_KernelIdeal_ReferenceIdeal := by
  intro m ρ m' ρ' _ hagree
  refine ⟨fun c => Cert.ReferenceIdeal.Read.val_main_v113 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.W11_v88 m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v113_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
